-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S16384x16384 : Shape := ⟨2, ![16384, 16384]⟩
abbrev S16384 : Shape := ⟨1, ![16384]⟩
abbrev S32x32 : Shape := ⟨2, ![32, 32]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16384 : S_.BroadcastsInDim S16384 (![] : Fin 0 → Fin S16384.rank)
  reducesTo_S16384_S_d0 : S16384.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  main_v23

def fn {F : FTy → Type} [FloatOps F] (main_arg0 : FVec F S16384x32 .f32) (main_arg1 : FVec F S16384x16384 .f32) (main_arg2 : FVec F S16384x16384 .f32) (main_arg3 : FVec F S16384 .f32) (main_arg4 : FVec F S32x32 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_v13 main_v16
-- ==== Kernel.lean ====
abbrev S16384x32 : Shape := ⟨2, ![16384, 32]⟩
abbrev S16384x16384 : Shape := ⟨2, ![16384, 16384]⟩
abbrev S16384 : Shape := ⟨1, ![16384]⟩
abbrev S32x32 : Shape := ⟨2, ![32, 32]⟩
abbrev S16384x1 : Shape := ⟨2, ![16384, 1]⟩
abbrev S4096x32 : Shape := ⟨2, ![4096, 32]⟩
abbrev S512x4096 : Shape := ⟨2, ![512, 4096]⟩
abbrev S512x1 : Shape := ⟨2, ![512, 1]⟩
abbrev S512x32 : Shape := ⟨2, ![512, 32]⟩

abbrev nBuf : Space → Nat
  | .hbm => 10
  | .vmem => 16
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S16384x16384, .f32⟩
  | .hbm, ⟨3, _⟩ => ⟨S16384, .f32⟩
  | .hbm, ⟨4, _⟩ => ⟨S32x32, .f32⟩
  | .hbm, ⟨5, _⟩ => ⟨S16384x32, .f32⟩
  | .hbm, ⟨6, _⟩ => ⟨S16384x32, .bf16⟩
  | .hbm, ⟨7, _⟩ => ⟨S16384x1, .f32⟩
  | .hbm, ⟨8, _⟩ => ⟨S16384x32, .bf16⟩
  | .hbm, ⟨9, _⟩ => ⟨S16384x32, .f32⟩
  | .local _ .vmem, ⟨0, _⟩ => ⟨S4096x32, .bf16⟩
  | .local _ .vmem, ⟨1, _⟩ => ⟨S4096x32, .bf16⟩
  | .local _ .vmem, ⟨2, _⟩ => ⟨S512x4096, .f32⟩
  | .local _ .vmem, ⟨3, _⟩ => ⟨S512x4096, .f32⟩
  | .local _ .vmem, ⟨4, _⟩ => ⟨S512x1, .f32⟩
  | .local _ .vmem, ⟨5, _⟩ => ⟨S512x1, .f32⟩
  | .local _ .vmem, ⟨6, _⟩ => ⟨S512x32, .bf16⟩
  | .local _ .vmem, ⟨7, _⟩ => ⟨S512x32, .bf16⟩
  | .local _ .vmem, ⟨8, _⟩ => ⟨S512x32, .f32⟩
  | .local _ .vmem, ⟨9, _⟩ => ⟨S512x4096, .f32⟩
  | .local _ .vmem, ⟨10, _⟩ => ⟨S512x4096, .f32⟩
  | .local _ .vmem, ⟨11, _⟩ => ⟨S4096x32, .bf16⟩
  | .local _ .vmem, ⟨12, _⟩ => ⟨S4096x32, .bf16⟩
  | .local _ .vmem, ⟨13, _⟩ => ⟨S512x32, .f32⟩
  | .local _ .vmem, ⟨14, _⟩ => ⟨S512x32, .f32⟩
  | .local _ .vmem, ⟨15, _⟩ => ⟨S512x32, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![32, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bitsLt_bf16_f32 : FTy.bits .bf16 < FTy.bits .f32
  shapeCasts_S16384_S16384x1 : S16384.ShapeCasts S16384x1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x4096_S512x4096_0_0 : ∀ a, (![0, 0] : Fin 2 → Nat) a + S512x4096.size a ≤ S512x4096.size a
  h_S512x4096 : 0 < S512x4096.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x32 : S512x1.Broadcasts S512x32
  packedbf16_S512x32_S512x32_0_0 : (Rect.unit (s := S512x32) ![0, 0] S512x32.size inb_S512x32_S512x32_0_0).PackedRows (EltTy.packing .bf16)
  dot_S16384x32_S32x32_S16384x32_1_0_0_1_n_n_wf : DotDims.WF S16384x32 S32x32 S16384x32 [1] [0] [0] [1] [] []
  dot_S512x4096_S4096x32_S512x32_1_0_0_1_n_n_wf : DotDims.WF S512x4096 S4096x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S16384x32.size a
  hwx0_0 : ∀ i : grid0.Coords, EltTy.bits .bf16 = 32 ∨ (Rect.block (s := S16384x32) S4096x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x16384.size a
  hwx0_1 : ∀ i : grid0.Coords, EltTy.bits .f32 = 32 ∨ (Rect.block (s := S16384x16384) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S16384x32.size a
  hwx0_3 : ∀ i : grid0.Coords, EltTy.bits .bf16 = 32 ∨ (Rect.block (s := S16384x32) S512x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x16384.size a
  hwx1_0 : ∀ i : grid1.Coords, EltTy.bits .f32 = 32 ∨ (Rect.block (s := S16384x16384) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S16384x32.size a
  hwx1_1 : ∀ i : grid1.Coords, EltTy.bits .bf16 = 32 ∨ (Rect.block (s := S16384x32) S4096x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x32.size a ≤ S16384x32.size a
  hwx1_2 : ∀ i : grid1.Coords, EltTy.bits .f32 = 32 ∨ (Rect.block (s := S16384x32) S512x32.size (cc1_transform_2 i) (hinb1_2 i)).WholeWords (EltTy.packing .f32)

variable [Facts₀]

def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf

abbrev win0_0 : Pipeline.Window sig grid0 :=
  Pipeline.Window.ofSpec (Memref.whole main_v1) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x32 : Shape := ⟨2, ![16384, 32]⟩
abbrev S16384x16384 : Shape := ⟨2, ![16384, 16384]⟩
abbrev S16384 : Shape := ⟨1, ![16384]⟩
abbrev S32x32 : Shape := ⟨2, ![32, 32]⟩
abbrev S16384x1 : Shape := ⟨2, ![16384, 1]⟩

abbrev nBuf : Space → Nat
  | .hbm => 11
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x16384, .f32⟩
  | .hbm, ⟨2, _⟩ => ⟨S16384x16384, .f32⟩
  | .hbm, ⟨3, _⟩ => ⟨S16384, .f32⟩
  | .hbm, ⟨4, _⟩ => ⟨S32x32, .f32⟩
  | .hbm, ⟨5, _⟩ => ⟨S16384x32, .f32⟩
  | .hbm, ⟨6, _⟩ => ⟨S16384x32, .f32⟩
  | .hbm, ⟨7, _⟩ => ⟨S16384x1, .f32⟩
  | .hbm, ⟨8, _⟩ => ⟨S16384x32, .f32⟩
  | .hbm, ⟨9, _⟩ => ⟨S16384x32, .f32⟩
  | .hbm, ⟨10, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  dot_S16384x32_S32x32_S16384x32_1_0_0_1_n_n_wf : DotDims.WF S16384x32 S32x32 S16384x32 [1] [0] [0] [1] [] []
  dot_S16384x16384_S16384x32_S16384x32_1_0_0_1_n_n_wf : DotDims.WF S16384x16384 S16384x32 S16384x32 [1] [0] [0] [1] [] []

variable [Facts₀]

def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf

class Facts : Prop extends Facts₀ where

variable [Facts]
-- ==== Proof.KB.R0Base.lean ====
/-
  The first product, y = (wavelets_inv · x) ⊙ diag, as a pipeline over the grid (32, 4): what its runs share.
  Point t = 4·m + k handles row block m (512 rows) and column block k (4096 columns). The body zeroes its
  accumulator when k = 0, adds the block product at every k, and when k = 3 writes the accumulator, scaled row by
  row by diag, into the output block; so the points fall into three cases: k = 0, 0 < k < 3, k = 3.
-/
import proofs.«177444_j42442866819263_2_alg».proof.Proof.Gen.Kernel.Launch
import proofs.«177444_j42442866819263_2_alg».proof.Proof.Gen.Kernel.Skeleton
import proofs.«177444_j42442866819263_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x block (4096 rows of x, selected by k) is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The wavelets_inv block (m, k) is in its buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The diag column block m is in its buffer at every point: fetched when k = 0, and its index does not move with k. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on k -/

/-- k = 0, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- k = 3, as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output block is stored and written back: only at k = 3 -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The buffers the body works on -/

/-- One staging buffer of the output window, through which its contents are stated. -/
abbrev VO0_3 : View sig .tc .vmem S512x32 .bf16 := (Memref.whole cc0_stg3_0 : Memref sig .tc .vmem S512x32 .bf16).view
abbrev ms0_0 (t : Fin cfg0.N) : Memref sig .tc .vmem S4096x32 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .bf16 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0 : Memref sig .tc .vmem S512x32 .f32 := Memref.whole cc0_scratch0
abbrev VS0 : View sig .tc .vmem S512x32 .f32 := scM0.view

/-- The core's other scoped buffers (the second product's staging buffers and accumulator), each whole at some contents:
    the first product never touches them. -/
def restOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant, opened: the accumulator at some contents, the other scoped buffers, the generator register. -/
theorem PhiA0_eq (c : Dev nD) :
    (Pipeline.ΦA spec0 c : sProp 𝕄)
      = iprop(iprop((∃ d, owns (c : Thread nD τ) scM0 fullShare d) ∗ restOther0 c) ∗ (∃ r, prngReg c r)) := by
  unfold Pipeline.ΦA restOther0; rw [scopedRest0_eq]; simp only [scM0, owns_whole]; try rfl

end Cert.Kernel.Hand

end
-- ==== Proof.KB.R0RunA.lean ====
/-
  The first product's body at a point with k = 0: the accumulator, whatever it held, is zeroed and then receives
  the block product; the output block is not touched.
-/
import proofs.«177444_j42442866819263_2_alg».proof.Proof.KB.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case k = 0. On whole buffers — the three input blocks at their contents, the output buffer at any contents (handed
    back untouched), the accumulator at anything — the body runs, and leaves the accumulator with the listed pieces
    written (the run finds them). -/
noncomputable def kernelRun0_A (c : Dev nD) (i : grid0.Coords) (arg2 : Memref sig .tc .vmem S4096x32 .bf16) (harg2 : arg2.IsWhole) (arg3 : Memref sig .tc .vmem S512x4096 .f32) (harg3 : arg3.IsWhole) (arg4 : Memref sig .tc .vmem S512x1 .f32) (harg4 : arg4.IsWhole) (arg5 : Memref sig .tc .vmem S512x32 .bf16) (harg5 : arg5.IsWhole) (arg6 : Memref sig .tc .vmem S512x32 .f32) (harg6 : arg6.IsWhole) (hc0 : cond0_0 i) (hc1 : ¬cond0_1 i)
    (x0 : Vec F S4096x32 .bf16) (x1 : Vec F S512x4096 .f32) (x2 : Vec F S512x1 .f32) :
    { LS0 : List (View.Piece (Elt F) S512x32 .f32) //
      ∀ (xi3 : Vec F S512x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel1 i arg2 harg2 arg3 harg3 arg4 harg4 arg5 harg5 arg6 harg6) K } := by
  refine ⟨?_, fun xi3 E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KB.R0RunB.lean ====
/-
  The first product's body at a point with 0 < k < 3: the accumulator receives the block product on top of what
  the point before left; the output block is not touched.
-/
import proofs.«177444_j42442866819263_2_alg».proof.Proof.KB.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case 0 < k < 3. As the case k = 0, with the accumulator entered at the contents `xs0` the point before left. -/
noncomputable def kernelRun0_B (c : Dev nD) (i : grid0.Coords) (arg2 : Memref sig .tc .vmem S4096x32 .bf16) (harg2 : arg2.IsWhole) (arg3 : Memref sig .tc .vmem S512x4096 .f32) (harg3 : arg3.IsWhole) (arg4 : Memref sig .tc .vmem S512x1 .f32) (harg4 : arg4.IsWhole) (arg5 : Memref sig .tc .vmem S512x32 .bf16) (harg5 : arg5.IsWhole) (arg6 : Memref sig .tc .vmem S512x32 .f32) (harg6 : arg6.IsWhole) (hc0 : ¬cond0_0 i) (hc1 : ¬cond0_1 i)
    (x0 : Vec F S4096x32 .bf16) (x1 : Vec F S512x4096 .f32) (x2 : Vec F S512x1 .f32) (xs0 : Vec F S512x32 .f32) :
    { LS0 : List (View.Piece (Elt F) S512x32 .f32) //
      ∀ (xi3 : Vec F S512x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel1 i arg2 harg2 arg3 harg3 arg4 harg4 arg5 harg5 arg6 harg6) K } := by
  refine ⟨?_, fun xi3 E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KB.R0RunC.lean ====
/-
  The first product's body at a point with k = 3: the accumulator receives the last block product, and the
  output block is stored whole: the accumulator scaled row by row by the diag column.
-/
import proofs.«177444_j42442866819263_2_alg».proof.Proof.KB.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case k = 3. The accumulator is entered at the contents `xs0` the point before left, the output buffer at
    anything; the body leaves each with the listed pieces written (the run finds them). -/
noncomputable def kernelRun0_C (c : Dev nD) (i : grid0.Coords) (arg2 : Memref sig .tc .vmem S4096x32 .bf16) (harg2 : arg2.IsWhole) (arg3 : Memref sig .tc .vmem S512x4096 .f32) (harg3 : arg3.IsWhole) (arg4 : Memref sig .tc .vmem S512x1 .f32) (harg4 : arg4.IsWhole) (arg5 : Memref sig .tc .vmem S512x32 .bf16) (harg5 : arg5.IsWhole) (arg6 : Memref sig .tc .vmem S512x32 .f32) (harg6 : arg6.IsWhole) (hc0 : ¬cond0_0 i) (hc1 : cond0_1 i)
    (x0 : Vec F S4096x32 .bf16) (x1 : Vec F S512x4096 .f32) (x2 : Vec F S512x1 .f32) (xs0 : Vec F S512x32 .f32) :
    Σ' (L3 : List (View.Piece (Elt F) S512x32 .bf16)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel1 i arg2 harg2 arg3 harg3 arg4 harg4 arg5 harg5 arg6 harg6) K } := by
  refine ⟨?_, ?_, fun E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KB.R0Frame.lean ====
/-
  The first product as a pipeline: what the accumulator and the output block hold after every grid point, the
  invariant carried from point to point, the proof data, and the body obligation.
  After point t = 4·m + k the accumulator holds the sum of the block products of row block m over the column blocks
  0 … k (started from zero at k = 0); at k = 3 the output block holds that sum scaled by diag.
-/
import proofs.«177444_j42442866819263_2_alg».proof.Proof.KB.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The three runs at a grid point -/

abbrev runA0 (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)
abbrev runB0 (c : Dev nD) (t : Fin cfg0.N) (h0 : ¬t.val % 4 = 0) (h1 : ¬t.val % 4 = 3) (xs : Vec F S512x32 .f32) :=
  kernelRun0_B (F := F) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) xs
abbrev runC0 (c : Dev nD) (t : Fin cfg0.N) (h0 : ¬t.val % 4 = 0) (h1 : t.val % 4 = 3) (xs : Vec F S512x32 .f32) :=
  kernelRun0_C (F := F) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs

/-- Each case's accumulator pieces tile the accumulator, so they cover it. -/
theorem scover0_A (c : Dev nD) (t : Fin cfg0.N) (h0 : t.val % 4 = 0) (h1 : ¬t.val % 4 = 3) (y : S512x32.Idx) :
    ∃ pc ∈ (runA0 V c t h0 h1).1, y ∈ pc.1.set :=
  View.cover_of_tiledL (runA0 V c t h0 h1).1 S512x32.size (by sl_kernel_rfl) y
theorem scover0_B (c : Dev nD) (t : Fin cfg0.N) (h0 : ¬t.val % 4 = 0) (h1 : ¬t.val % 4 = 3) (xs : Vec F S512x32 .f32) (y : S512x32.Idx) :
    ∃ pc ∈ (runB0 V c t h0 h1 xs).1, y ∈ pc.1.set :=
  View.cover_of_tiledL (runB0 V c t h0 h1 xs).1 S512x32.size (by sl_kernel_rfl) y
theorem scover0_C (c : Dev nD) (t : Fin cfg0.N) (h0 : ¬t.val % 4 = 0) (h1 : t.val % 4 = 3) (xs : Vec F S512x32 .f32) (y : S512x32.Idx) :
    ∃ pc ∈ (runC0 V c t h0 h1 xs).2.1, y ∈ pc.1.set :=
  View.cover_of_tiledL (runC0 V c t h0 h1 xs).2.1 S512x32.size (by sl_kernel_rfl) y
/-- At k = 3 the one store into the output block covers it. -/
theorem cover0_C (c : Dev nD) (t : Fin cfg0.N) (h0 : ¬t.val % 4 = 0) (h1 : t.val % 4 = 3) (xs : Vec F S512x32 .f32) (y : S512x32.Idx) :
    ∃ pc ∈ (runC0 V c t h0 h1 xs).1, y ∈ pc.1.set :=
  View.cover_of_tiledL (runC0 V c t h0 h1 xs).1 S512x32.size (by sl_kernel_rfl) y

/-- What each case leaves in the accumulator: its pieces read back. -/
def sout0_A (c : Dev nD) (t : Fin cfg0.N) (h0 : t.val % 4 = 0) (h1 : ¬t.val % 4 = 3) : Vec F S512x32 .f32 :=
  VS0.read (Elt F) (VS0.writes (Elt F) VS0.junk (runA0 V c t h0 h1).1)
def sout0_B (c : Dev nD) (t : Fin cfg0.N) (h0 : ¬t.val % 4 = 0) (h1 : ¬t.val % 4 = 3) (xs : Vec F S512x32 .f32) : Vec F S512x32 .f32 :=
  VS0.read (Elt F) (VS0.writes (Elt F) VS0.junk (runB0 V c t h0 h1 xs).1)
def sout0_C (c : Dev nD) (t : Fin cfg0.N) (h0 : ¬t.val % 4 = 0) (h1 : t.val % 4 = 3) (xs : Vec F S512x32 .f32) : Vec F S512x32 .f32 :=
  VS0.read (Elt F) (VS0.writes (Elt F) VS0.junk (runC0 V c t h0 h1 xs).2.1)
/-- What the case k = 3 leaves in the output block. -/
def out0_C (c : Dev nD) (t : Fin cfg0.N) (h0 : ¬t.val % 4 = 0) (h1 : t.val % 4 = 3) (xs : Vec F S512x32 .f32) : Vec F S512x32 .bf16 :=
  VO0_3.read (Elt F) (VO0_3.writes (Elt F) VO0_3.junk (runC0 V c t h0 h1 xs).1)
/-- A placeholder for the output block at the points that do not store it (nothing reads it there). -/
def idle0_3 : Vec F S512x32 .bf16 := VO0_3.read (Elt F) VO0_3.junk

/-! ## The accumulation, point by point -/

/-- After the body at position `n`: the output block, and the accumulator. -/
def outsAt0 (c : Dev nD) : (n : ℕ) → n < cfg0.N → Vec F S512x32 .bf16 × Vec F S512x32 .f32
  | 0, hn => (idle0_3, sout0_A V c ⟨0, hn⟩ (Nat.zero_mod _) (show ¬(0 % 4 = 3) by decide))
  | n + 1, hn =>
    if h0 : (n + 1) % 4 = 0 then
      (idle0_3, sout0_A V c ⟨n + 1, hn⟩ h0 (show ¬((n + 1) % 4 = 3) by omega))
    else
      if h1 : (n + 1) % 4 = 3 then
        (out0_C V c ⟨n + 1, hn⟩ h0 h1 (outsAt0 c n (Nat.lt_of_succ_lt hn)).2, sout0_C V c ⟨n + 1, hn⟩ h0 h1 (outsAt0 c n (Nat.lt_of_succ_lt hn)).2)
      else
        (idle0_3, sout0_B V c ⟨n + 1, hn⟩ h0 h1 (outsAt0 c n (Nat.lt_of_succ_lt hn)).2)

theorem outsAt0_A (c : Dev nD) (t : Fin cfg0.N) (h0 : t.val % 4 = 0) (h1 : ¬t.val % 4 = 3) :
    outsAt0 V c t.val t.isLt = (idle0_3, sout0_A V c t h0 h1) := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 V c t.val t.isLt = (idle0_3, sout0_B V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C V c t h0 h1 (outsAt0 V c (t.val - 1) (Nat.lt_of_le_of_lt (Nat.sub_le _ _) t.isLt)).2, sout0_C V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant carried between points -/

/-- Before position `n`: at the start the class's invariant (the accumulator at anything); afterwards the accumulator
    at what the point before left, the other scoped buffers and the generator register at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restOther0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ restOther0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restOther0 c) ∗ (∃ r, prngReg c r)) := by
  cases n with
  | zero => exact absurd rfl hz
  | succ n => rfl

/-! ## The proof data -/

/-- The arrays as the region finds them; after the body at point `t` each input's buffer at its block, the output's
    at the accumulation's first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point. The inputs' buffers hold their blocks; the remainder of the point's position mod 4 says
    which case applies; the invariant hands the body the accumulator (at anything at the very first point, else at what
    the point before left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 128 := lt_of_lt_of_eq t.isLt (show cfg0.N = 128 from N_0)
  by_cases h0 : t.val % 4 = 0
  · have h1 : ¬t.val % 4 = 3 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hro⟩, Hg⟩, Ho, ⟨%d0, H0⟩, ⟨%d1, H1⟩, ⟨%d2, H2⟩, ⟨%d3, H3⟩⟩
      iapply ((runA0 V c t h0 h1).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover0_A V c t h0 h1)
          iexact Hro
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hro⟩, Hg⟩, Ho, ⟨%d0, H0⟩, ⟨%d1, H1⟩, ⟨%d2, H2⟩, ⟨%d3, H3⟩⟩
      iapply ((runA0 V c t h0 h1).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover0_A V c t h0 h1)
          iexact Hro
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C sout0_C; (try dsimp only)
      rw [PhiS0_castSucc V c t, PhiS0_pos V c _ _ hz]
      iintro ⟨⟨⟨HS0, Hro⟩, Hg⟩, Ho, ⟨%d0, H0⟩, ⟨%d1, H1⟩, ⟨%d2, H2⟩, ⟨%d3, H3⟩⟩
      iapply ((runC0 V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover0_C V c t h0 h1 _)
          iexact Hro
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C V c t h0 h1 _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B; (try dsimp only)
      rw [PhiS0_castSucc V c t, PhiS0_pos V c _ _ hz]
      iintro ⟨⟨⟨HS0, Hro⟩, Hg⟩, Ho, ⟨%d0, H0⟩, ⟨%d1, H1⟩, ⟨%d2, H2⟩, ⟨%d3, H3⟩⟩
      iapply ((runB0 V c t h0 h1 _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover0_B V c t h0 h1 _)
          iexact Hro
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hro⟩, Hg⟩
  isplitl [HS0 Hro]
  · isplitl [HS0]
    · iexists _; iexact HS0
    iexact Hro
  iexact Hg

end Cert.Kernel.Hand

end
-- ==== Proof.KB.R1Base.lean ====
/-
  The second product, out = wavelets · y, as a pipeline over the grid (32, 4): what its runs share.
  Point t = 4·m + k handles row block m (512 rows) and column block k (4096 columns). The body zeroes its
  accumulator when k = 0, adds the block product at every k, and when k = 3 copies the accumulator into the output
  block; so the points fall into three cases: k = 0, 0 < k < 3, k = 3.
-/
import proofs.«177444_j42442866819263_2_alg».proof.Proof.Gen.Kernel.Launch
import proofs.«177444_j42442866819263_2_alg».proof.Proof.Gen.Kernel.Skeleton
import proofs.«177444_j42442866819263_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The wavelets block (m, k) is in its buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The y block (4096 rows of y, selected by k) is in its buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on k -/

/-- k = 0, as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- k = 3, as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output block is stored and written back: only at k = 3 -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The buffers the body works on -/

/-- One staging buffer of the output window, through which its contents are stated. -/
abbrev VO1_2 : View sig .tc .vmem S512x32 .f32 := (Memref.whole cc1_stg2_0 : Memref sig .tc .vmem S512x32 .f32).view
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x32 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1 : Memref sig .tc .vmem S512x32 .f32 := Memref.whole cc1_scratch0
abbrev VS1 : View sig .tc .vmem S512x32 .f32 := scM1.view

/-- The core's other scoped buffers (the first product's staging buffers and accumulator), each whole at some contents:
    the second product never touches them. -/
def restOther1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant, opened: the accumulator at some contents, the other scoped buffers, the generator register. -/
theorem PhiA1_open (c : Dev nD) :
    (Pipeline.ΦA spec1 c : sProp 𝕄)
      ⊢ iprop(iprop((∃ d, owns (c : Thread nD τ) scM1 fullShare d) ∗ restOther1 c) ∗ (∃ r, prngReg c r)) := by
  unfold Pipeline.ΦA restOther1; rw [scopedRest1_eq]; simp only [scM1, owns_whole]
  iintro ⟨⟨Hr1, Hr2, Hr3, Hr4, Hr5, Hr6, Hr7, Hr8, Hr9, HS⟩, Hg⟩
  isplitr [Hg]
  · isplitl [HS]; · iexact HS
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexact Hr9
  iexact Hg

/-- And closed again. -/
theorem PhiA1_close (c : Dev nD) :
    iprop(iprop((∃ d, owns (c : Thread nD τ) scM1 fullShare d) ∗ restOther1 c) ∗ (∃ r, prngReg c r))
      ⊢ (Pipeline.ΦA spec1 c : sProp 𝕄) := by
  unfold Pipeline.ΦA restOther1; rw [scopedRest1_eq]; simp only [scM1, owns_whole]
  iintro ⟨⟨HS, Hr1, Hr2, Hr3, Hr4, Hr5, Hr6, Hr7, Hr8, Hr9⟩, Hg⟩
  isplitr [Hg]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iexact HS
  iexact Hg

end Cert.Kernel.Hand

end
-- ==== Proof.KB.R1RunA.lean ====
/-
  The second product's body at a point with k = 0: the accumulator, whatever it held, is zeroed and then receives
  the block product; the output block is not touched.
-/
import proofs.«177444_j42442866819263_2_alg».proof.Proof.KB.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case k = 0. On whole buffers — the two input blocks at their contents, the output buffer at any contents (handed
    back untouched), the accumulator at anything — the body runs, and leaves the accumulator with the listed pieces
    written (the run finds them). -/
noncomputable def kernelRun1_A (c : Dev nD) (i : grid1.Coords) (arg2 : Memref sig .tc .vmem S512x4096 .f32) (harg2 : arg2.IsWhole) (arg3 : Memref sig .tc .vmem S4096x32 .bf16) (harg3 : arg3.IsWhole) (arg4 : Memref sig .tc .vmem S512x32 .f32) (harg4 : arg4.IsWhole) (arg5 : Memref sig .tc .vmem S512x32 .f32) (harg5 : arg5.IsWhole) (hc0 : cond1_0 i) (hc1 : ¬cond1_1 i)
    (x0 : Vec F S512x4096 .f32) (x1 : Vec F S4096x32 .bf16) :
    { LS0 : List (View.Piece (Elt F) S512x32 .f32) //
      ∀ (xi2 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__kernel2 i arg2 harg2 arg3 harg3 arg4 harg4 arg5 harg5) K } := by
  refine ⟨?_, fun xi2 E K => ?run⟩
  case run =>
    simp only [cc1__kernel2_eq_skeleton]; unfold cc1__kernel2_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.R1RunB.lean ====
/-
  The second product's body at a point with 0 < k < 3: the accumulator receives the block product on top of what
  the point before left; the output block is not touched.
-/
import proofs.«177444_j42442866819263_2_alg».proof.Proof.KB.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case 0 < k < 3. As the case k = 0, with the accumulator entered at the contents `xs0` the point before left. -/
noncomputable def kernelRun1_B (c : Dev nD) (i : grid1.Coords) (arg2 : Memref sig .tc .vmem S512x4096 .f32) (harg2 : arg2.IsWhole) (arg3 : Memref sig .tc .vmem S4096x32 .bf16) (harg3 : arg3.IsWhole) (arg4 : Memref sig .tc .vmem S512x32 .f32) (harg4 : arg4.IsWhole) (arg5 : Memref sig .tc .vmem S512x32 .f32) (harg5 : arg5.IsWhole) (hc0 : ¬cond1_0 i) (hc1 : ¬cond1_1 i)
    (x0 : Vec F S512x4096 .f32) (x1 : Vec F S4096x32 .bf16) (xs0 : Vec F S512x32 .f32) :
    { LS0 : List (View.Piece (Elt F) S512x32 .f32) //
      ∀ (xi2 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__kernel2 i arg2 harg2 arg3 harg3 arg4 harg4 arg5 harg5) K } := by
  refine ⟨?_, fun xi2 E K => ?run⟩
  case run =>
    simp only [cc1__kernel2_eq_skeleton]; unfold cc1__kernel2_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.KB.R1RunC.lean ====
/-
  The second product's body at a point with k = 3: the accumulator receives the last block product, and the
  output block is stored whole: a copy of the accumulator.
-/
import proofs.«177444_j42442866819263_2_alg».proof.Proof.KB.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case k = 3. The accumulator is entered at the contents `xs0` the point before left, the output buffer at
    anything; the body leaves each with the listed pieces written (the run finds them). -/
noncomputable def kernelRun1_C (c : Dev nD) (i : grid1.Coords) (arg2 : Memref sig .tc .vmem S512x4096 .f32) (harg2 : arg2.IsWhole) (arg3 : Memref sig .tc .vmem S4096x32 .bf16) (harg3 : arg3.IsWhole) (arg4 : Memref sig .tc .vmem S512x32 .f32) (harg4 : arg4.IsWhole) (arg5 : Memref sig .tc .vmem S512x32 .f32) (harg5 : arg5.IsWhole) (hc0 : ¬cond1_0 i) (hc1 : cond1_1 i)
    (x0 : Vec F S512x4096 .f32) (x1 : Vec F S4096x32 .bf16) (xs0 : Vec F S512x32 .f32) :
    Σ' (L2 : List (View.Piece (Elt F) S512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__kernel2 i arg2 harg2 arg3 harg3 arg4 harg4 arg5 harg5) K } := by
  refine ⟨?_, ?_, fun E K => ?run⟩
  case run =>
    simp only [cc1__kernel2_eq_skeleton]; unfold cc1__kernel2_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KB.R1Frame.lean ====
/-
  The second product as a pipeline: what the accumulator and the output block hold after every grid point, the
  invariant carried from point to point, the proof data, and the body obligation.
  After point t = 4·m + k the accumulator holds the sum of the block products of row block m over the column blocks
  0 … k (started from zero at k = 0); at k = 3 the output block is that sum.
-/
import proofs.«177444_j42442866819263_2_alg».proof.Proof.KB.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The three runs at a grid point -/

abbrev runA1 (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)
abbrev runB1 (c : Dev nD) (t : Fin cfg1.N) (h0 : ¬t.val % 4 = 0) (h1 : ¬t.val % 4 = 3) (xs : Vec F S512x32 .f32) :=
  kernelRun1_B (F := F) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs
abbrev runC1 (c : Dev nD) (t : Fin cfg1.N) (h0 : ¬t.val % 4 = 0) (h1 : t.val % 4 = 3) (xs : Vec F S512x32 .f32) :=
  kernelRun1_C (F := F) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) xs

/-- Each case's accumulator pieces tile the accumulator, so they cover it. -/
theorem scover1_A (c : Dev nD) (t : Fin cfg1.N) (h0 : t.val % 4 = 0) (h1 : ¬t.val % 4 = 3) (y : S512x32.Idx) :
    ∃ pc ∈ (runA1 V c t h0 h1).1, y ∈ pc.1.set :=
  View.cover_of_tiledL (runA1 V c t h0 h1).1 S512x32.size (by sl_kernel_rfl) y
theorem scover1_B (c : Dev nD) (t : Fin cfg1.N) (h0 : ¬t.val % 4 = 0) (h1 : ¬t.val % 4 = 3) (xs : Vec F S512x32 .f32) (y : S512x32.Idx) :
    ∃ pc ∈ (runB1 V c t h0 h1 xs).1, y ∈ pc.1.set :=
  View.cover_of_tiledL (runB1 V c t h0 h1 xs).1 S512x32.size (by sl_kernel_rfl) y
theorem scover1_C (c : Dev nD) (t : Fin cfg1.N) (h0 : ¬t.val % 4 = 0) (h1 : t.val % 4 = 3) (xs : Vec F S512x32 .f32) (y : S512x32.Idx) :
    ∃ pc ∈ (runC1 V c t h0 h1 xs).2.1, y ∈ pc.1.set :=
  View.cover_of_tiledL (runC1 V c t h0 h1 xs).2.1 S512x32.size (by sl_kernel_rfl) y
/-- At k = 3 the one store into the output block covers it. -/
theorem cover1_C (c : Dev nD) (t : Fin cfg1.N) (h0 : ¬t.val % 4 = 0) (h1 : t.val % 4 = 3) (xs : Vec F S512x32 .f32) (y : S512x32.Idx) :
    ∃ pc ∈ (runC1 V c t h0 h1 xs).1, y ∈ pc.1.set :=
  View.cover_of_tiledL (runC1 V c t h0 h1 xs).1 S512x32.size (by sl_kernel_rfl) y

/-- What each case leaves in the accumulator: its pieces read back. -/
def sout1_A (c : Dev nD) (t : Fin cfg1.N) (h0 : t.val % 4 = 0) (h1 : ¬t.val % 4 = 3) : Vec F S512x32 .f32 :=
  VS1.read (Elt F) (VS1.writes (Elt F) VS1.junk (runA1 V c t h0 h1).1)
def sout1_B (c : Dev nD) (t : Fin cfg1.N) (h0 : ¬t.val % 4 = 0) (h1 : ¬t.val % 4 = 3) (xs : Vec F S512x32 .f32) : Vec F S512x32 .f32 :=
  VS1.read (Elt F) (VS1.writes (Elt F) VS1.junk (runB1 V c t h0 h1 xs).1)
def sout1_C (c : Dev nD) (t : Fin cfg1.N) (h0 : ¬t.val % 4 = 0) (h1 : t.val % 4 = 3) (xs : Vec F S512x32 .f32) : Vec F S512x32 .f32 :=
  VS1.read (Elt F) (VS1.writes (Elt F) VS1.junk (runC1 V c t h0 h1 xs).2.1)
/-- What the case k = 3 leaves in the output block. -/
def out1_C (c : Dev nD) (t : Fin cfg1.N) (h0 : ¬t.val % 4 = 0) (h1 : t.val % 4 = 3) (xs : Vec F S512x32 .f32) : Vec F S512x32 .f32 :=
  VO1_2.read (Elt F) (VO1_2.writes (Elt F) VO1_2.junk (runC1 V c t h0 h1 xs).1)
/-- A placeholder for the output block at the points that do not store it (nothing reads it there). -/
def idle1_2 : Vec F S512x32 .f32 := VO1_2.read (Elt F) VO1_2.junk

/-! ## The accumulation, point by point -/

/-- After the body at position `n`: the output block, and the accumulator. -/
def outsAt1 (c : Dev nD) : (n : ℕ) → n < cfg1.N → Vec F S512x32 .f32 × Vec F S512x32 .f32
  | 0, hn => (idle1_2, sout1_A V c ⟨0, hn⟩ (Nat.zero_mod _) (show ¬(0 % 4 = 3) by decide))
  | n + 1, hn =>
    if h0 : (n + 1) % 4 = 0 then
      (idle1_2, sout1_A V c ⟨n + 1, hn⟩ h0 (show ¬((n + 1) % 4 = 3) by omega))
    else
      if h1 : (n + 1) % 4 = 3 then
        (out1_C V c ⟨n + 1, hn⟩ h0 h1 (outsAt1 c n (Nat.lt_of_succ_lt hn)).2, sout1_C V c ⟨n + 1, hn⟩ h0 h1 (outsAt1 c n (Nat.lt_of_succ_lt hn)).2)
      else
        (idle1_2, sout1_B V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (idle1_2, sout1_A V c t h0 h1) := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = (idle1_2, sout1_B V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C V c t h0 h1 (outsAt1 V c (t.val - 1) (Nat.lt_of_le_of_lt (Nat.sub_le _ _) t.isLt)).2, sout1_C V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant carried between points -/

/-- Before position `n`: at the start the class's invariant (the accumulator at anything); afterwards the accumulator
    at what the point before left, the other scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restOther1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ restOther1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restOther1 c) ∗ (∃ r, prngReg c r)) := by
  cases n with
  | zero => exact absurd rfl hz
  | succ n => rfl

/-! ## The proof data -/

/-- The arrays as the region finds them; after the body at point `t` each input's buffer at its block, the output's
    at the accumulation's first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4800000 in
/-- The body at any point. The inputs' buffers hold their blocks; the remainder of the point's position mod 4 says
    which case applies; the invariant hands the body the accumulator (at anything at the very first point, else at what
    the point before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 128 := lt_of_lt_of_eq t.isLt (show cfg1.N = 128 from N_1)
  by_cases h0 : t.val % 4 = 0
  · have h1 : ¬t.val % 4 = 3 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_open c) $$ HΦ
      icases HΦ' with ⟨⟨HS0, Hro⟩, Hg⟩
      iapply ((runA1 V c t h0 h1).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover1_A V c t h0 h1)
          iexact Hro
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hro⟩, Hg⟩, Ho, ⟨%d0, H0⟩, ⟨%d1, H1⟩, ⟨%d2, H2⟩⟩
      iapply ((runA1 V c t h0 h1).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover1_A V c t h0 h1)
          iexact Hro
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C sout1_C; (try dsimp only)
      rw [PhiS1_castSucc V c t, PhiS1_pos V c _ _ hz]
      iintro ⟨⟨⟨HS0, Hro⟩, Hg⟩, Ho, ⟨%d0, H0⟩, ⟨%d1, H1⟩, ⟨%d2, H2⟩⟩
      iapply ((runC1 V c t h0 h1 _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover1_C V c t h0 h1 _)
          iexact Hro
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C V c t h0 h1 _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B; (try dsimp only)
      rw [PhiS1_castSucc V c t, PhiS1_pos V c _ _ hz]
      iintro ⟨⟨⟨HS0, Hro⟩, Hg⟩, Ho, ⟨%d0, H0⟩, ⟨%d1, H1⟩, ⟨%d2, H2⟩⟩
      iapply ((runB1 V c t h0 h1 _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover1_B V c t h0 h1 _)
          iexact Hro
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- The accumulator's named contents can be forgotten. -/
theorem forget1 (c : Dev nD) (x : Vec F S512x32 .f32) :
    (iprop(iprop(owns (c : Thread nD τ) scM1 fullShare x ∗ restOther1 c) ∗ (∃ r, prngReg c r)) : sProp 𝕄)
      ⊢ iprop(iprop((∃ d, owns (c : Thread nD τ) scM1 fullShare d) ∗ restOther1 c) ∗ (∃ r, prngReg c r)) := by
  iintro ⟨⟨HS0, Hro⟩, Hg⟩
  isplitl [HS0 Hro]
  · isplitl [HS0]
    · iexists _; iexact HS0
    iexact Hro
  iexact Hg

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ ht]
  exact (forget1 c _).trans (PhiA1_close c)

end Cert.Kernel.Hand

end
-- ==== Proof.KB.Run.lean ====
/- The run of the kernel program: @main as three segments (the host operations, then one region per product), the launch
   over them, and what every final memory holds: the arguments as launched, the result at what the second product's
   pipeline leaves in its output window. -/
import proofs.«177444_j42442866819263_2_alg».proof.Proof.KB.R0Frame
import proofs.«177444_j42442866819263_2_alg».proof.Proof.KB.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: three host operations, then the two products, each a region entered once

## The unscoped buffers' contents at each boundary between two segments -/

/-- Core `c`'s buffers at launch. -/
abbrev W0 : Dev nD → Valuation τ sig (Elt F) := fun c b => (s₀ m ρ).mem ((c : Dev nD), b)
/-- After the three host operations (the first product's entry): `main_v0`, `main_v1`, `main_v2` written. -/
abbrev W1 : Dev nD → Valuation τ sig (Elt F) := fun c => StableHlo.after hostOps0 (W0 m ρ c)
/-- The same read at the TensorCore's references: what the first product's proof data take. -/
abbrev V1 : (c : Dev nD) → (b : Ref sig .tc) → Buf (Elt F) ((c : Thread nD τ).loc b) := fun c b => W1 m ρ c b
/-- At the first product's exit: its four arrays at what the pipeline leaves after its last point (the three inputs as
    entered, `main_v3` at its write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the first product's exit contents, which the second product's proof
    data take. -/
abbrev V2 : (c : Dev nD) → (b : Ref sig .tc) → Buf (Elt F) ((c : Thread nD τ).loc b) := fun c b => W2 m ρ c b
/-- At the first product's exit each of its arrays holds what the pipeline leaves, and every other buffer what it held
    at entry: the two facts that put the arrays back among the unscoped buffers. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second product's exit, the end of @main: its three arrays at what the pipeline leaves after its last point
    (the two inputs as entered, `main_v4` at its write-backs folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references: the second product's exit contents. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### Reading the contents back

The host operations write `main_v0`, `main_v1`, `main_v2` and nothing else; the first product writes `main_v3` alone, the
second `main_v4` alone (an input window's array ends as entered). So every argument's buffer walks back to the launch
memory, and the result's is what the second product's pipeline leaves. -/

/-- A buffer that is none of `main_v0`, `main_v1`, `main_v2` is as launched after the host operations. -/
theorem W1_of_ne (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.binary_writes, StableHlo.reshape_writes,
      Finset.mem_singleton]
    exact ⟨StableHlo.devRef_ne_of_ne h0, StableHlo.devRef_ne_of_ne h1, StableHlo.devRef_ne_of_ne h2⟩))

/-- `main_arg0` (the features) is read by the first host operation only: no region has it as an array. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide) (by decide) (by decide)
    _ = m ((c : Thread nD τ).loc main_arg0) := rfl

/-- The second product's entry has `main_arg1` as launched: the first product has no window on it. -/
theorem V2_main_arg1 (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of_ne m ρ c main_arg1 (by decide) (by decide) (by decide)
    _ = m ((c : Thread nD τ).loc main_arg1) := rfl

/-- `main_arg1` (the wavelets) is the second product's input window 0: an input's array ends as entered. -/
theorem W3_main_arg1 (c : Dev nD) : W3 m ρ c (Proc.devRef .tc main_arg1) = m ((c : Thread nD τ).loc main_arg1) :=
  calc W3 m ρ c (Proc.devRef .tc main_arg1)
    _ = V2 m ρ c main_arg1 := (W3_arr m ρ c 0).trans (((dat1 (V2 m ρ) c).arrAt_in 0 rfl _).trans (A_eq1 (V2 m ρ) c 0))
    _ = m ((c : Thread nD τ).loc main_arg1) := V2_main_arg1 m ρ c

/-- `main_arg2` (the inverse wavelets) is the first product's input window 1; the second product has no window on it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of_ne m ρ c main_arg2 (by decide) (by decide) (by decide)
    _ = m ((c : Thread nD τ).loc main_arg2) := rfl

/-- `main_arg3` (the diagonal) is read by the reshape only. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide) (by decide) (by decide)
    _ = m ((c : Thread nD τ).loc main_arg3) := rfl

/-- `main_arg4` (the weights) is read by the first host operation only. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide) (by decide) (by decide)
    _ = m ((c : Thread nD τ).loc main_arg4) := rfl

/-- The result `main_v4` is the second product's output window 2: it ends at what that pipeline leaves. -/
theorem W3_main_v4 (c : Dev nD) : W3 m ρ c (Proc.devRef .tc main_v4) = (dat1 (V2 m ρ) c).arrAt 2 cfg1.N :=
  W3_arr m ρ c 2

/-- The second product finds in `main_v3` what the first product's pipeline leaves in its output window 3. -/
theorem V2_main_v3 (c : Dev nD) : V2 m ρ c main_v3 = (dat0 (V1 m ρ) c).arrAt 3 cfg0.N :=
  W2_arr m ρ c 3

/-! ### The first product's inputs at entry, as terms of the launch arguments -/

/-- `main_arg2` (the inverse wavelets) is as launched when the first product is entered. -/
theorem V1_main_arg2 (c : Dev nD) : V1 m ρ c main_arg2 = m ((c : Thread nD τ).loc main_arg2) :=
  (W1_of_ne m ρ c main_arg2 (by decide) (by decide) (by decide)).trans rfl

/-- `main_v1` holds the features times the weights, converted to the narrow format. -/
theorem V1_main_v1 (c : Dev nD) : V1 m ρ c main_v1
    = truncf .bf16 (Host.dotGeneral dot_S16384x32_S32x32_S16384x32_1_0_0_1_n_n (some .fp32)
        (m ((c : Thread nD τ).loc main_arg0)) (m ((c : Thread nD τ).loc main_arg4))) bitsLt_bf16_f32 := by
  show StableHlo.after hostOps0 (W0 m ρ c) (Proc.devRef .tc main_v1) = _
  open Idealize.ShloMosaic.StableHlo in after_results

/-- `main_v2` holds the diagonal as a column. -/
theorem V1_main_v2 (c : Dev nD) : V1 m ρ c main_v2
    = fun i => (rfl : (main_arg3 : Ref sig .tc).ty.elt = (main_v2 : Ref sig .tc).ty.elt) ▸
        shapeCast (main_v2 : Ref sig .tc).ty.shape (m ((c : Thread nD τ).loc main_arg3)) shapeCasts_S16384_S16384x1 i := by
  show StableHlo.after hostOps0 (W0 m ρ c) (Proc.devRef .tc main_v2) = _
  open Idealize.ShloMosaic.StableHlo in after_results

/-- The same, the column as the plain recast of the launched diagonal. -/
theorem V1_main_v2_eq (c : Dev nD) : (V1 m ρ c main_v2 : S16384x1.Idx → Elt F .f32)
    = shapeCast S16384x1 (m ((c : Thread nD τ).loc main_arg3) : S16384.Idx → Elt F .f32) shapeCasts_S16384_S16384x1 :=
  (V1_main_v2 m ρ c).trans rfl

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents: a literal `match` on the pipeline, so that at a
    numeral it reduces to that region's. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)

/-- No host operation allocates a buffer. -/
theorem hostOps0_fresh : (hostOps0 : List (HloOp τ sig (Elt F))).Forall fun op => op.fresh = ∅ := by
  simp only [List.Forall]; repeat' constructor
/-- The host operations as a segment: over the unscoped references from the launch contents, `R` riding along; it
    leaves those references at `W1`. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents `W3`, the generator register
    at some state. -/
abbrev Tₙ (c : Dev nD) : sProp 𝕄 := iprop(StableHlo.held (c : Thread nD τ) (Pipeline.ucRefs τ sig) (W3 m ρ c) ∗ ∃ r, prngReg c r)

/-! ## The regions as segments

Each region's invariant carries its accumulator between grid points, so it is the class invariant `ΦA` only at the two
ends, through the region's own `hinK` / `houtK`: the generator register enters `ΦA` beside the scoped rest, `ΦA` enters
the invariant at point 0; at the last point the invariant gives `ΦA` back, which gives the register and the scoped rest. -/

set_option backward.isDefEq.respectTransparency.types false in
/-- THE FIRST PRODUCT (custom_call 0) over the thread state: entered from every unscoped buffer at `W1`, left at `W2`. Its
    four arrays are split out of the unscoped buffers and put back at the exit contents; nothing owed; no semaphore of
    the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PRODUCT (custom_call 1) over the thread state: entered from every unscoped buffer at `W2`, left at `W3`,
    what the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host operations from the launch contents, then one region per product. -/
abbrev segs : List (Pipeline.Seg (pcfgs (F := F)) adm (pdats m ρ) () defs₀ 𝒱₀ L lv) :=
  [ .host (hseg0 m ρ),
    .region (reg0 m ρ),
    .region (reg1 m ρ) ]
/-- @main IS the run of the segments: @main as the chain of its items, and the segments' run against that chain. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and every final memory holds, on every core, each unscoped buffer at
    the fold's last contents `W3`: the launch over the three segments, the last thread state read against the final
    state. The frame and the result's value are both read off this. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE RESULT AND THE ARGUMENTS: every final memory holds in `main_v4` what the second product's pipeline leaves in its
    output window, and each argument as launched — what the value of the result is computed from. -/
theorem run_value : θ_run defs (onTc (τ := τ) (main (F := F))) ⟨m, fun _ => 0, ρ⟩ (fun r => ∀ c : Dev nD,
      r.2.mem ((c.tc : Thread nD τ).loc main_v4) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- THE FRAME, at any `F`: every weakly fair execution of @main terminates, nothing faulting, and every final memory has
    the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_value m ρ)

/-- info: 'Cert.Kernel.Hand.run_all' depends on axioms: [propext, Classical.choice, Quot.sound] -/
#guard_msgs in #print axioms run_all

end Cert.Kernel.Hand

end
-- ==== Proof.KI.R0Base.lean ====
/-
  The first product, y = (wavelets_inv · x) ⊙ diag, as a pipeline over the grid (32, 4): what its runs share.
  Point t = 4·m + k handles row block m (512 rows) and column block k (4096 columns). The body zeroes its
  accumulator when k = 0, adds the block product at every k, and when k = 3 writes the accumulator, scaled row by
  row by diag, into the output block; so the points fall into three cases: k = 0, 0 < k < 3, k = 3.
-/
import proofs.«177444_j42442866819263_2_alg».proof.Proof.Gen.KernelIdeal.Launch
import proofs.«177444_j42442866819263_2_alg».proof.Proof.Gen.KernelIdeal.Skeleton
import proofs.«177444_j42442866819263_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x block (4096 rows of x, selected by k) is in its buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The wavelets_inv block (m, k) is in its buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The diag column block m is in its buffer at every point: fetched when k = 0, and its index does not move with k. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on k -/

/-- k = 0, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- k = 3, as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output block is stored and written back: only at k = 3 -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The buffers the body works on -/

/-- One staging buffer of the output window, through which its contents are stated. -/
abbrev VO0_3 : View sig .tc .vmem S512x32 .bf16 := (Memref.whole cc0_stg3_0 : Memref sig .tc .vmem S512x32 .bf16).view
abbrev ms0_0 (t : Fin cfg0.N) : Memref sig .tc .vmem S4096x32 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .bf16 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0 : Memref sig .tc .vmem S512x32 .f32 := Memref.whole cc0_scratch0
abbrev VS0 : View sig .tc .vmem S512x32 .f32 := scM0.view

/-- The core's other scoped buffers (the second product's staging buffers and accumulator), each whole at some contents:
    the first product never touches them. -/
def restOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant, opened: the accumulator at some contents, the other scoped buffers, the generator register. -/
theorem PhiA0_eq (c : Dev nD) :
    (Pipeline.ΦA spec0 c : sProp 𝕄)
      = iprop(iprop((∃ d, owns (c : Thread nD τ) scM0 fullShare d) ∗ restOther0 c) ∗ (∃ r, prngReg c r)) := by
  unfold Pipeline.ΦA restOther0; rw [scopedRest0_eq]; simp only [scM0, owns_whole]; try rfl

end Cert.KernelIdeal.Hand

end
-- ==== Proof.KI.R0RunA.lean ====
/-
  The first product's body at a point with k = 0: the accumulator, whatever it held, is zeroed and then receives
  the block product; the output block is not touched.
-/
import proofs.«177444_j42442866819263_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case k = 0. On whole buffers — the three input blocks at their contents, the output buffer at any contents (handed
    back untouched), the accumulator at anything — the body runs, and leaves the accumulator with the listed pieces
    written (the run finds them). -/
noncomputable def kernelRun0_A (c : Dev nD) (i : grid0.Coords) (arg2 : Memref sig .tc .vmem S4096x32 .bf16) (harg2 : arg2.IsWhole) (arg3 : Memref sig .tc .vmem S512x4096 .f32) (harg3 : arg3.IsWhole) (arg4 : Memref sig .tc .vmem S512x1 .f32) (harg4 : arg4.IsWhole) (arg5 : Memref sig .tc .vmem S512x32 .bf16) (harg5 : arg5.IsWhole) (arg6 : Memref sig .tc .vmem S512x32 .f32) (harg6 : arg6.IsWhole) (hc0 : cond0_0 i) (hc1 : ¬cond0_1 i)
    (x0 : Vec F S4096x32 .bf16) (x1 : Vec F S512x4096 .f32) (x2 : Vec F S512x1 .f32) :
    { LS0 : List (View.Piece (Elt F) S512x32 .f32) //
      ∀ (xi3 : Vec F S512x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel1 i arg2 harg2 arg3 harg3 arg4 harg4 arg5 harg5 arg6 harg6) K } := by
  refine ⟨?_, fun xi3 E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunB.lean ====
/-
  The first product's body at a point with 0 < k < 3: the accumulator receives the block product on top of what
  the point before left; the output block is not touched.
-/
import proofs.«177444_j42442866819263_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case 0 < k < 3. As the case k = 0, with the accumulator entered at the contents `xs0` the point before left. -/
noncomputable def kernelRun0_B (c : Dev nD) (i : grid0.Coords) (arg2 : Memref sig .tc .vmem S4096x32 .bf16) (harg2 : arg2.IsWhole) (arg3 : Memref sig .tc .vmem S512x4096 .f32) (harg3 : arg3.IsWhole) (arg4 : Memref sig .tc .vmem S512x1 .f32) (harg4 : arg4.IsWhole) (arg5 : Memref sig .tc .vmem S512x32 .bf16) (harg5 : arg5.IsWhole) (arg6 : Memref sig .tc .vmem S512x32 .f32) (harg6 : arg6.IsWhole) (hc0 : ¬cond0_0 i) (hc1 : ¬cond0_1 i)
    (x0 : Vec F S4096x32 .bf16) (x1 : Vec F S512x4096 .f32) (x2 : Vec F S512x1 .f32) (xs0 : Vec F S512x32 .f32) :
    { LS0 : List (View.Piece (Elt F) S512x32 .f32) //
      ∀ (xi3 : Vec F S512x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernel1 i arg2 harg2 arg3 harg3 arg4 harg4 arg5 harg5 arg6 harg6) K } := by
  refine ⟨?_, fun xi3 E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunC.lean ====
/-
  The first product's body at a point with k = 3: the accumulator receives the last block product, and the
  output block is stored whole: the accumulator scaled row by row by the diag column.
-/
import proofs.«177444_j42442866819263_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case k = 3. The accumulator is entered at the contents `xs0` the point before left, the output buffer at
    anything; the body leaves each with the listed pieces written (the run finds them). -/
noncomputable def kernelRun0_C (c : Dev nD) (i : grid0.Coords) (arg2 : Memref sig .tc .vmem S4096x32 .bf16) (harg2 : arg2.IsWhole) (arg3 : Memref sig .tc .vmem S512x4096 .f32) (harg3 : arg3.IsWhole) (arg4 : Memref sig .tc .vmem S512x1 .f32) (harg4 : arg4.IsWhole) (arg5 : Memref sig .tc .vmem S512x32 .bf16) (harg5 : arg5.IsWhole) (arg6 : Memref sig .tc .vmem S512x32 .f32) (harg6 : arg6.IsWhole) (hc0 : ¬cond0_0 i) (hc1 : cond0_1 i)
    (x0 : Vec F S4096x32 .bf16) (x1 : Vec F S512x4096 .f32) (x2 : Vec F S512x1 .f32) (xs0 : Vec F S512x32 .f32) :
    Σ' (L3 : List (View.Piece (Elt F) S512x32 .bf16)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernel1 i arg2 harg2 arg3 harg3 arg4 harg4 arg5 harg5 arg6 harg6) K } := by
  refine ⟨?_, ?_, fun E K => ?run⟩
  case run =>
    simp only [cc0__kernel1_eq_skeleton]; unfold cc0__kernel1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R0Frame.lean ====
/-
  The first product as a pipeline: what the accumulator and the output block hold after every grid point, the
  invariant carried from point to point, the proof data, and the body obligation.
  After point t = 4·m + k the accumulator holds the sum of the block products of row block m over the column blocks
  0 … k (started from zero at k = 0); at k = 3 the output block holds that sum scaled by diag.
-/
import proofs.«177444_j42442866819263_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The three runs at a grid point -/

abbrev runA0 (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)
abbrev runB0 (c : Dev nD) (t : Fin cfg0.N) (h0 : ¬t.val % 4 = 0) (h1 : ¬t.val % 4 = 3) (xs : Vec F S512x32 .f32) :=
  kernelRun0_B (F := F) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) xs
abbrev runC0 (c : Dev nD) (t : Fin cfg0.N) (h0 : ¬t.val % 4 = 0) (h1 : t.val % 4 = 3) (xs : Vec F S512x32 .f32) :=
  kernelRun0_C (F := F) c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) xs

/-- Each case's accumulator pieces tile the accumulator, so they cover it. -/
theorem scover0_A (c : Dev nD) (t : Fin cfg0.N) (h0 : t.val % 4 = 0) (h1 : ¬t.val % 4 = 3) (y : S512x32.Idx) :
    ∃ pc ∈ (runA0 V c t h0 h1).1, y ∈ pc.1.set :=
  View.cover_of_tiledL (runA0 V c t h0 h1).1 S512x32.size (by sl_kernel_rfl) y
theorem scover0_B (c : Dev nD) (t : Fin cfg0.N) (h0 : ¬t.val % 4 = 0) (h1 : ¬t.val % 4 = 3) (xs : Vec F S512x32 .f32) (y : S512x32.Idx) :
    ∃ pc ∈ (runB0 V c t h0 h1 xs).1, y ∈ pc.1.set :=
  View.cover_of_tiledL (runB0 V c t h0 h1 xs).1 S512x32.size (by sl_kernel_rfl) y
theorem scover0_C (c : Dev nD) (t : Fin cfg0.N) (h0 : ¬t.val % 4 = 0) (h1 : t.val % 4 = 3) (xs : Vec F S512x32 .f32) (y : S512x32.Idx) :
    ∃ pc ∈ (runC0 V c t h0 h1 xs).2.1, y ∈ pc.1.set :=
  View.cover_of_tiledL (runC0 V c t h0 h1 xs).2.1 S512x32.size (by sl_kernel_rfl) y
/-- At k = 3 the one store into the output block covers it. -/
theorem cover0_C (c : Dev nD) (t : Fin cfg0.N) (h0 : ¬t.val % 4 = 0) (h1 : t.val % 4 = 3) (xs : Vec F S512x32 .f32) (y : S512x32.Idx) :
    ∃ pc ∈ (runC0 V c t h0 h1 xs).1, y ∈ pc.1.set :=
  View.cover_of_tiledL (runC0 V c t h0 h1 xs).1 S512x32.size (by sl_kernel_rfl) y

/-- What each case leaves in the accumulator: its pieces read back. -/
def sout0_A (c : Dev nD) (t : Fin cfg0.N) (h0 : t.val % 4 = 0) (h1 : ¬t.val % 4 = 3) : Vec F S512x32 .f32 :=
  VS0.read (Elt F) (VS0.writes (Elt F) VS0.junk (runA0 V c t h0 h1).1)
def sout0_B (c : Dev nD) (t : Fin cfg0.N) (h0 : ¬t.val % 4 = 0) (h1 : ¬t.val % 4 = 3) (xs : Vec F S512x32 .f32) : Vec F S512x32 .f32 :=
  VS0.read (Elt F) (VS0.writes (Elt F) VS0.junk (runB0 V c t h0 h1 xs).1)
def sout0_C (c : Dev nD) (t : Fin cfg0.N) (h0 : ¬t.val % 4 = 0) (h1 : t.val % 4 = 3) (xs : Vec F S512x32 .f32) : Vec F S512x32 .f32 :=
  VS0.read (Elt F) (VS0.writes (Elt F) VS0.junk (runC0 V c t h0 h1 xs).2.1)
/-- What the case k = 3 leaves in the output block. -/
def out0_C (c : Dev nD) (t : Fin cfg0.N) (h0 : ¬t.val % 4 = 0) (h1 : t.val % 4 = 3) (xs : Vec F S512x32 .f32) : Vec F S512x32 .bf16 :=
  VO0_3.read (Elt F) (VO0_3.writes (Elt F) VO0_3.junk (runC0 V c t h0 h1 xs).1)
/-- A placeholder for the output block at the points that do not store it (nothing reads it there). -/
def idle0_3 : Vec F S512x32 .bf16 := VO0_3.read (Elt F) VO0_3.junk

/-! ## The accumulation, point by point -/

/-- After the body at position `n`: the output block, and the accumulator. -/
def outsAt0 (c : Dev nD) : (n : ℕ) → n < cfg0.N → Vec F S512x32 .bf16 × Vec F S512x32 .f32
  | 0, hn => (idle0_3, sout0_A V c ⟨0, hn⟩ (Nat.zero_mod _) (show ¬(0 % 4 = 3) by decide))
  | n + 1, hn =>
    if h0 : (n + 1) % 4 = 0 then
      (idle0_3, sout0_A V c ⟨n + 1, hn⟩ h0 (show ¬((n + 1) % 4 = 3) by omega))
    else
      if h1 : (n + 1) % 4 = 3 then
        (out0_C V c ⟨n + 1, hn⟩ h0 h1 (outsAt0 c n (Nat.lt_of_succ_lt hn)).2, sout0_C V c ⟨n + 1, hn⟩ h0 h1 (outsAt0 c n (Nat.lt_of_succ_lt hn)).2)
      else
        (idle0_3, sout0_B V c ⟨n + 1, hn⟩ h0 h1 (outsAt0 c n (Nat.lt_of_succ_lt hn)).2)

theorem outsAt0_A (c : Dev nD) (t : Fin cfg0.N) (h0 : t.val % 4 = 0) (h1 : ¬t.val % 4 = 3) :
    outsAt0 V c t.val t.isLt = (idle0_3, sout0_A V c t h0 h1) := by
  obtain ⟨n, hn⟩ := t
  cases n with
  | zero => rfl
  | succ n => exact (dif_pos h0).trans rfl

theorem outsAt0_B (c : Dev nD) (t : Fin cfg0.N) (h0 : ¬t.val % 4 = 0) (h1 : ¬t.val % 4 = 3) :
    outsAt0 V c t.val t.isLt = (idle0_3, sout0_B V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C V c t h0 h1 (outsAt0 V c (t.val - 1) (Nat.lt_of_le_of_lt (Nat.sub_le _ _) t.isLt)).2, sout0_C V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant carried between points -/

/-- Before position `n`: at the start the class's invariant (the accumulator at anything); afterwards the accumulator
    at what the point before left, the other scoped buffers and the generator register at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restOther0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ restOther0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restOther0 c) ∗ (∃ r, prngReg c r)) := by
  cases n with
  | zero => exact absurd rfl hz
  | succ n => rfl

/-! ## The proof data -/

/-- The arrays as the region finds them; after the body at point `t` each input's buffer at its block, the output's
    at the accumulation's first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point. The inputs' buffers hold their blocks; the remainder of the point's position mod 4 says
    which case applies; the invariant hands the body the accumulator (at anything at the very first point, else at what
    the point before left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 128 := lt_of_lt_of_eq t.isLt (show cfg0.N = 128 from N_0)
  by_cases h0 : t.val % 4 = 0
  · have h1 : ¬t.val % 4 = 3 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hro⟩, Hg⟩, Ho, ⟨%d0, H0⟩, ⟨%d1, H1⟩, ⟨%d2, H2⟩, ⟨%d3, H3⟩⟩
      iapply ((runA0 V c t h0 h1).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover0_A V c t h0 h1)
          iexact Hro
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hro⟩, Hg⟩, Ho, ⟨%d0, H0⟩, ⟨%d1, H1⟩, ⟨%d2, H2⟩, ⟨%d3, H3⟩⟩
      iapply ((runA0 V c t h0 h1).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover0_A V c t h0 h1)
          iexact Hro
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C sout0_C; (try dsimp only)
      rw [PhiS0_castSucc V c t, PhiS0_pos V c _ _ hz]
      iintro ⟨⟨⟨HS0, Hro⟩, Hg⟩, Ho, ⟨%d0, H0⟩, ⟨%d1, H1⟩, ⟨%d2, H2⟩, ⟨%d3, H3⟩⟩
      iapply ((runC0 V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover0_C V c t h0 h1 _)
          iexact Hro
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C V c t h0 h1 _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B; (try dsimp only)
      rw [PhiS0_castSucc V c t, PhiS0_pos V c _ _ hz]
      iintro ⟨⟨⟨HS0, Hro⟩, Hg⟩, Ho, ⟨%d0, H0⟩, ⟨%d1, H1⟩, ⟨%d2, H2⟩, ⟨%d3, H3⟩⟩
      iapply ((runB0 V c t h0 h1 _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover0_B V c t h0 h1 _)
          iexact Hro
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hro⟩, Hg⟩
  isplitl [HS0 Hro]
  · isplitl [HS0]
    · iexists _; iexact HS0
    iexact Hro
  iexact Hg

end Cert.KernelIdeal.Hand

end
-- ==== Proof.KI.R1Base.lean ====
/-
  The second product, out = wavelets · y, as a pipeline over the grid (32, 4): what its runs share.
  Point t = 4·m + k handles row block m (512 rows) and column block k (4096 columns). The body zeroes its
  accumulator when k = 0, adds the block product at every k, and when k = 3 copies the accumulator into the output
  block; so the points fall into three cases: k = 0, 0 < k < 3, k = 3.
-/
import proofs.«177444_j42442866819263_2_alg».proof.Proof.Gen.KernelIdeal.Launch
import proofs.«177444_j42442866819263_2_alg».proof.Proof.Gen.KernelIdeal.Skeleton
import proofs.«177444_j42442866819263_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The wavelets block (m, k) is in its buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The y block (4096 rows of y, selected by k) is in its buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on k -/

/-- k = 0, as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- k = 3, as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output block is stored and written back: only at k = 3 -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The buffers the body works on -/

/-- One staging buffer of the output window, through which its contents are stated. -/
abbrev VO1_2 : View sig .tc .vmem S512x32 .f32 := (Memref.whole cc1_stg2_0 : Memref sig .tc .vmem S512x32 .f32).view
abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x32 .f32 := win1_2.stage (cfg1.slots t 2)
abbrev hs1_2 (t : Fin cfg1.N) : (ms1_2 t).IsWhole := hstage1_2 ((cfg1.slots t 2).cast nbuf1_2)
/-- The accumulator: a whole scoped buffer of the kernel's own, carried from point to point. -/
abbrev scM1 : Memref sig .tc .vmem S512x32 .f32 := Memref.whole cc1_scratch0
abbrev VS1 : View sig .tc .vmem S512x32 .f32 := scM1.view

/-- The core's other scoped buffers (the first product's staging buffers and accumulator), each whole at some contents:
    the second product never touches them. -/
def restOther1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant, opened: the accumulator at some contents, the other scoped buffers, the generator register. -/
theorem PhiA1_open (c : Dev nD) :
    (Pipeline.ΦA spec1 c : sProp 𝕄)
      ⊢ iprop(iprop((∃ d, owns (c : Thread nD τ) scM1 fullShare d) ∗ restOther1 c) ∗ (∃ r, prngReg c r)) := by
  unfold Pipeline.ΦA restOther1; rw [scopedRest1_eq]; simp only [scM1, owns_whole]
  iintro ⟨⟨Hr1, Hr2, Hr3, Hr4, Hr5, Hr6, Hr7, Hr8, Hr9, HS⟩, Hg⟩
  isplitr [Hg]
  · isplitl [HS]; · iexact HS
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexact Hr9
  iexact Hg

/-- And closed again. -/
theorem PhiA1_close (c : Dev nD) :
    iprop(iprop((∃ d, owns (c : Thread nD τ) scM1 fullShare d) ∗ restOther1 c) ∗ (∃ r, prngReg c r))
      ⊢ (Pipeline.ΦA spec1 c : sProp 𝕄) := by
  unfold Pipeline.ΦA restOther1; rw [scopedRest1_eq]; simp only [scM1, owns_whole]
  iintro ⟨⟨HS, Hr1, Hr2, Hr3, Hr4, Hr5, Hr6, Hr7, Hr8, Hr9⟩, Hg⟩
  isplitr [Hg]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iexact HS
  iexact Hg

end Cert.KernelIdeal.Hand

end
-- ==== Proof.KI.R1RunA.lean ====
/-
  The second product's body at a point with k = 0: the accumulator, whatever it held, is zeroed and then receives
  the block product; the output block is not touched.
-/
import proofs.«177444_j42442866819263_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case k = 0. On whole buffers — the two input blocks at their contents, the output buffer at any contents (handed
    back untouched), the accumulator at anything — the body runs, and leaves the accumulator with the listed pieces
    written (the run finds them). -/
noncomputable def kernelRun1_A (c : Dev nD) (i : grid1.Coords) (arg2 : Memref sig .tc .vmem S512x4096 .f32) (harg2 : arg2.IsWhole) (arg3 : Memref sig .tc .vmem S4096x32 .bf16) (harg3 : arg3.IsWhole) (arg4 : Memref sig .tc .vmem S512x32 .f32) (harg4 : arg4.IsWhole) (arg5 : Memref sig .tc .vmem S512x32 .f32) (harg5 : arg5.IsWhole) (hc0 : cond1_0 i) (hc1 : ¬cond1_1 i)
    (x0 : Vec F S512x4096 .f32) (x1 : Vec F S4096x32 .bf16) :
    { LS0 : List (View.Piece (Elt F) S512x32 .f32) //
      ∀ (xi2 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__kernel2 i arg2 harg2 arg3 harg3 arg4 harg4 arg5 harg5) K } := by
  refine ⟨?_, fun xi2 E K => ?run⟩
  case run =>
    simp only [cc1__kernel2_eq_skeleton]; unfold cc1__kernel2_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunB.lean ====
/-
  The second product's body at a point with 0 < k < 3: the accumulator receives the block product on top of what
  the point before left; the output block is not touched.
-/
import proofs.«177444_j42442866819263_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case 0 < k < 3. As the case k = 0, with the accumulator entered at the contents `xs0` the point before left. -/
noncomputable def kernelRun1_B (c : Dev nD) (i : grid1.Coords) (arg2 : Memref sig .tc .vmem S512x4096 .f32) (harg2 : arg2.IsWhole) (arg3 : Memref sig .tc .vmem S4096x32 .bf16) (harg3 : arg3.IsWhole) (arg4 : Memref sig .tc .vmem S512x32 .f32) (harg4 : arg4.IsWhole) (arg5 : Memref sig .tc .vmem S512x32 .f32) (harg5 : arg5.IsWhole) (hc0 : ¬cond1_0 i) (hc1 : ¬cond1_1 i)
    (x0 : Vec F S512x4096 .f32) (x1 : Vec F S4096x32 .bf16) (xs0 : Vec F S512x32 .f32) :
    { LS0 : List (View.Piece (Elt F) S512x32 .f32) //
      ∀ (xi2 : Vec F S512x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__kernel2 i arg2 harg2 arg3 harg3 arg4 harg4 arg5 harg5) K } := by
  refine ⟨?_, fun xi2 E K => ?run⟩
  case run =>
    simp only [cc1__kernel2_eq_skeleton]; unfold cc1__kernel2_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R1RunC.lean ====
/-
  The second product's body at a point with k = 3: the accumulator receives the last block product, and the
  output block is stored whole: a copy of the accumulator.
-/
import proofs.«177444_j42442866819263_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- Case k = 3. The accumulator is entered at the contents `xs0` the point before left, the output buffer at
    anything; the body leaves each with the listed pieces written (the run finds them). -/
noncomputable def kernelRun1_C (c : Dev nD) (i : grid1.Coords) (arg2 : Memref sig .tc .vmem S512x4096 .f32) (harg2 : arg2.IsWhole) (arg3 : Memref sig .tc .vmem S4096x32 .bf16) (harg3 : arg3.IsWhole) (arg4 : Memref sig .tc .vmem S512x32 .f32) (harg4 : arg4.IsWhole) (arg5 : Memref sig .tc .vmem S512x32 .f32) (harg5 : arg5.IsWhole) (hc0 : ¬cond1_0 i) (hc1 : cond1_1 i)
    (x0 : Vec F S512x4096 .f32) (x1 : Vec F S4096x32 .bf16) (xs0 : Vec F S512x32 .f32) :
    Σ' (L2 : List (View.Piece (Elt F) S512x32 .f32)), { LS0 : List (View.Piece (Elt F) S512x32 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__kernel2 i arg2 harg2 arg3 harg3 arg4 harg4 arg5 harg5) K } := by
  refine ⟨?_, ?_, fun E K => ?run⟩
  case run =>
    simp only [cc1__kernel2_eq_skeleton]; unfold cc1__kernel2_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R1Frame.lean ====
/-
  The second product as a pipeline: what the accumulator and the output block hold after every grid point, the
  invariant carried from point to point, the proof data, and the body obligation.
  After point t = 4·m + k the accumulator holds the sum of the block products of row block m over the column blocks
  0 … k (started from zero at k = 0); at k = 3 the output block is that sum.
-/
import proofs.«177444_j42442866819263_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The three runs at a grid point -/

abbrev runA1 (c : Dev nD) (t : Fin cfg1.N) (h0 : t.val % 4 = 0) (h1 : ¬t.val % 4 = 3) :=
  kernelRun1_A (F := F) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)
abbrev runB1 (c : Dev nD) (t : Fin cfg1.N) (h0 : ¬t.val % 4 = 0) (h1 : ¬t.val % 4 = 3) (xs : Vec F S512x32 .f32) :=
  kernelRun1_B (F := F) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) xs
abbrev runC1 (c : Dev nD) (t : Fin cfg1.N) (h0 : ¬t.val % 4 = 0) (h1 : t.val % 4 = 3) (xs : Vec F S512x32 .f32) :=
  kernelRun1_C (F := F) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) xs

/-- Each case's accumulator pieces tile the accumulator, so they cover it. -/
theorem scover1_A (c : Dev nD) (t : Fin cfg1.N) (h0 : t.val % 4 = 0) (h1 : ¬t.val % 4 = 3) (y : S512x32.Idx) :
    ∃ pc ∈ (runA1 V c t h0 h1).1, y ∈ pc.1.set :=
  View.cover_of_tiledL (runA1 V c t h0 h1).1 S512x32.size (by sl_kernel_rfl) y
theorem scover1_B (c : Dev nD) (t : Fin cfg1.N) (h0 : ¬t.val % 4 = 0) (h1 : ¬t.val % 4 = 3) (xs : Vec F S512x32 .f32) (y : S512x32.Idx) :
    ∃ pc ∈ (runB1 V c t h0 h1 xs).1, y ∈ pc.1.set :=
  View.cover_of_tiledL (runB1 V c t h0 h1 xs).1 S512x32.size (by sl_kernel_rfl) y
theorem scover1_C (c : Dev nD) (t : Fin cfg1.N) (h0 : ¬t.val % 4 = 0) (h1 : t.val % 4 = 3) (xs : Vec F S512x32 .f32) (y : S512x32.Idx) :
    ∃ pc ∈ (runC1 V c t h0 h1 xs).2.1, y ∈ pc.1.set :=
  View.cover_of_tiledL (runC1 V c t h0 h1 xs).2.1 S512x32.size (by sl_kernel_rfl) y
/-- At k = 3 the one store into the output block covers it. -/
theorem cover1_C (c : Dev nD) (t : Fin cfg1.N) (h0 : ¬t.val % 4 = 0) (h1 : t.val % 4 = 3) (xs : Vec F S512x32 .f32) (y : S512x32.Idx) :
    ∃ pc ∈ (runC1 V c t h0 h1 xs).1, y ∈ pc.1.set :=
  View.cover_of_tiledL (runC1 V c t h0 h1 xs).1 S512x32.size (by sl_kernel_rfl) y

/-- What each case leaves in the accumulator: its pieces read back. -/
def sout1_A (c : Dev nD) (t : Fin cfg1.N) (h0 : t.val % 4 = 0) (h1 : ¬t.val % 4 = 3) : Vec F S512x32 .f32 :=
  VS1.read (Elt F) (VS1.writes (Elt F) VS1.junk (runA1 V c t h0 h1).1)
def sout1_B (c : Dev nD) (t : Fin cfg1.N) (h0 : ¬t.val % 4 = 0) (h1 : ¬t.val % 4 = 3) (xs : Vec F S512x32 .f32) : Vec F S512x32 .f32 :=
  VS1.read (Elt F) (VS1.writes (Elt F) VS1.junk (runB1 V c t h0 h1 xs).1)
def sout1_C (c : Dev nD) (t : Fin cfg1.N) (h0 : ¬t.val % 4 = 0) (h1 : t.val % 4 = 3) (xs : Vec F S512x32 .f32) : Vec F S512x32 .f32 :=
  VS1.read (Elt F) (VS1.writes (Elt F) VS1.junk (runC1 V c t h0 h1 xs).2.1)
/-- What the case k = 3 leaves in the output block. -/
def out1_C (c : Dev nD) (t : Fin cfg1.N) (h0 : ¬t.val % 4 = 0) (h1 : t.val % 4 = 3) (xs : Vec F S512x32 .f32) : Vec F S512x32 .f32 :=
  VO1_2.read (Elt F) (VO1_2.writes (Elt F) VO1_2.junk (runC1 V c t h0 h1 xs).1)
/-- A placeholder for the output block at the points that do not store it (nothing reads it there). -/
def idle1_2 : Vec F S512x32 .f32 := VO1_2.read (Elt F) VO1_2.junk

/-! ## The accumulation, point by point -/

/-- After the body at position `n`: the output block, and the accumulator. -/
def outsAt1 (c : Dev nD) : (n : ℕ) → n < cfg1.N → Vec F S512x32 .f32 × Vec F S512x32 .f32
  | 0, hn => (idle1_2, sout1_A V c ⟨0, hn⟩ (Nat.zero_mod _) (show ¬(0 % 4 = 3) by decide))
  | n + 1, hn =>
    if h0 : (n + 1) % 4 = 0 then
      (idle1_2, sout1_A V c ⟨n + 1, hn⟩ h0 (show ¬((n + 1) % 4 = 3) by omega))
    else
      if h1 : (n + 1) % 4 = 3 then
        (out1_C V c ⟨n + 1, hn⟩ h0 h1 (outsAt1 c n (Nat.lt_of_succ_lt hn)).2, sout1_C V c ⟨n + 1, hn⟩ h0 h1 (outsAt1 c n (Nat.lt_of_succ_lt hn)).2)
      else
        (idle1_2, sout1_B V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (idle1_2, sout1_A V c t h0 h1) := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = (idle1_2, sout1_B V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C V c t h0 h1 (outsAt1 V c (t.val - 1) (Nat.lt_of_le_of_lt (Nat.sub_le _ _) t.isLt)).2, sout1_C V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant carried between points -/

/-- Before position `n`: at the start the class's invariant (the accumulator at anything); afterwards the accumulator
    at what the point before left, the other scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restOther1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ restOther1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restOther1 c) ∗ (∃ r, prngReg c r)) := by
  cases n with
  | zero => exact absurd rfl hz
  | succ n => rfl

/-! ## The proof data -/

/-- The arrays as the region finds them; after the body at point `t` each input's buffer at its block, the output's
    at the accumulation's first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

set_option maxHeartbeats 4800000 in
/-- The body at any point. The inputs' buffers hold their blocks; the remainder of the point's position mod 4 says
    which case applies; the invariant hands the body the accumulator (at anything at the very first point, else at what
    the point before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 128 := lt_of_lt_of_eq t.isLt (show cfg1.N = 128 from N_1)
  by_cases h0 : t.val % 4 = 0
  · have h1 : ¬t.val % 4 = 3 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_open c) $$ HΦ
      icases HΦ' with ⟨⟨HS0, Hro⟩, Hg⟩
      iapply ((runA1 V c t h0 h1).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover1_A V c t h0 h1)
          iexact Hro
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hro⟩, Hg⟩, Ho, ⟨%d0, H0⟩, ⟨%d1, H1⟩, ⟨%d2, H2⟩⟩
      iapply ((runA1 V c t h0 h1).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover1_A V c t h0 h1)
          iexact Hro
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C sout1_C; (try dsimp only)
      rw [PhiS1_castSucc V c t, PhiS1_pos V c _ _ hz]
      iintro ⟨⟨⟨HS0, Hro⟩, Hg⟩, Ho, ⟨%d0, H0⟩, ⟨%d1, H1⟩, ⟨%d2, H2⟩⟩
      iapply ((runC1 V c t h0 h1 _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover1_C V c t h0 h1 _)
          iexact Hro
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C V c t h0 h1 _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B; (try dsimp only)
      rw [PhiS1_castSucc V c t, PhiS1_pos V c _ _ hz]
      iintro ⟨⟨⟨HS0, Hro⟩, Hg⟩, Ho, ⟨%d0, H0⟩, ⟨%d1, H1⟩, ⟨%d2, H2⟩⟩
      iapply ((runB1 V c t h0 h1 _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hro Hg]
      · isplitl [HS0 Hro]
        · isplitl [HS0]
          · unfold owns; iexists _; isplitr
            swap; · iexact HS0
            ipureintro; exact View.read_writes_of_cover _ _ _ _ _ (scover1_B V c t h0 h1 _)
          iexact Hro
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- The accumulator's named contents can be forgotten. -/
theorem forget1 (c : Dev nD) (x : Vec F S512x32 .f32) :
    (iprop(iprop(owns (c : Thread nD τ) scM1 fullShare x ∗ restOther1 c) ∗ (∃ r, prngReg c r)) : sProp 𝕄)
      ⊢ iprop(iprop((∃ d, owns (c : Thread nD τ) scM1 fullShare d) ∗ restOther1 c) ∗ (∃ r, prngReg c r)) := by
  iintro ⟨⟨HS0, Hro⟩, Hg⟩
  isplitl [HS0 Hro]
  · isplitl [HS0]
    · iexists _; iexact HS0
    iexact Hro
  iexact Hg

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ ht]
  exact (forget1 c _).trans (PhiA1_close c)

end Cert.KernelIdeal.Hand

end
-- ==== Proof.KI.Run.lean ====
/- The run of the kernel program: @main as three segments (the host operations, then one region per product), the launch
   over them, and what every final memory holds: the arguments as launched, the result at what the second product's
   pipeline leaves in its output window. -/
import proofs.«177444_j42442866819263_2_alg».proof.Proof.KI.R0Frame
import proofs.«177444_j42442866819263_2_alg».proof.Proof.KI.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: three host operations, then the two products, each a region entered once

## The unscoped buffers' contents at each boundary between two segments -/

/-- Core `c`'s buffers at launch. -/
abbrev W0 : Dev nD → Valuation τ sig (Elt F) := fun c b => (s₀ m ρ).mem ((c : Dev nD), b)
/-- After the three host operations (the first product's entry): `main_v0`, `main_v1`, `main_v2` written. -/
abbrev W1 : Dev nD → Valuation τ sig (Elt F) := fun c => StableHlo.after hostOps0 (W0 m ρ c)
/-- The same read at the TensorCore's references: what the first product's proof data take. -/
abbrev V1 : (c : Dev nD) → (b : Ref sig .tc) → Buf (Elt F) ((c : Thread nD τ).loc b) := fun c b => W1 m ρ c b
/-- At the first product's exit: its four arrays at what the pipeline leaves after its last point (the three inputs as
    entered, `main_v3` at its write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references: the first product's exit contents, which the second product's proof
    data take. -/
abbrev V2 : (c : Dev nD) → (b : Ref sig .tc) → Buf (Elt F) ((c : Thread nD τ).loc b) := fun c b => W2 m ρ c b
/-- At the first product's exit each of its arrays holds what the pipeline leaves, and every other buffer what it held
    at entry: the two facts that put the arrays back among the unscoped buffers. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second product's exit, the end of @main: its three arrays at what the pipeline leaves after its last point
    (the two inputs as entered, `main_v4` at its write-backs folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references: the second product's exit contents. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### Reading the contents back

The host operations write `main_v0`, `main_v1`, `main_v2` and nothing else; the first product writes `main_v3` alone, the
second `main_v4` alone (an input window's array ends as entered). So every argument's buffer walks back to the launch
memory, and the result's is what the second product's pipeline leaves. -/

/-- A buffer that is none of `main_v0`, `main_v1`, `main_v2` is as launched after the host operations. -/
theorem W1_of_ne (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.binary_writes, StableHlo.reshape_writes,
      Finset.mem_singleton]
    exact ⟨StableHlo.devRef_ne_of_ne h0, StableHlo.devRef_ne_of_ne h1, StableHlo.devRef_ne_of_ne h2⟩))

/-- `main_arg0` (the features) is read by the first host operation only: no region has it as an array. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide) (by decide) (by decide)
    _ = m ((c : Thread nD τ).loc main_arg0) := rfl

/-- The second product's entry has `main_arg1` as launched: the first product has no window on it. -/
theorem V2_main_arg1 (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of_ne m ρ c main_arg1 (by decide) (by decide) (by decide)
    _ = m ((c : Thread nD τ).loc main_arg1) := rfl

/-- `main_arg1` (the wavelets) is the second product's input window 0: an input's array ends as entered. -/
theorem W3_main_arg1 (c : Dev nD) : W3 m ρ c (Proc.devRef .tc main_arg1) = m ((c : Thread nD τ).loc main_arg1) :=
  calc W3 m ρ c (Proc.devRef .tc main_arg1)
    _ = V2 m ρ c main_arg1 := (W3_arr m ρ c 0).trans (((dat1 (V2 m ρ) c).arrAt_in 0 rfl _).trans (A_eq1 (V2 m ρ) c 0))
    _ = m ((c : Thread nD τ).loc main_arg1) := V2_main_arg1 m ρ c

/-- `main_arg2` (the inverse wavelets) is the first product's input window 1; the second product has no window on it. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of_ne m ρ c main_arg2 (by decide) (by decide) (by decide)
    _ = m ((c : Thread nD τ).loc main_arg2) := rfl

/-- `main_arg3` (the diagonal) is read by the reshape only. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide) (by decide) (by decide)
    _ = m ((c : Thread nD τ).loc main_arg3) := rfl

/-- `main_arg4` (the weights) is read by the first host operation only. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide) (by decide) (by decide)
    _ = m ((c : Thread nD τ).loc main_arg4) := rfl

/-- The result `main_v4` is the second product's output window 2: it ends at what that pipeline leaves. -/
theorem W3_main_v4 (c : Dev nD) : W3 m ρ c (Proc.devRef .tc main_v4) = (dat1 (V2 m ρ) c).arrAt 2 cfg1.N :=
  W3_arr m ρ c 2

/-- The second product finds in `main_v3` what the first product's pipeline leaves in its output window 3. -/
theorem V2_main_v3 (c : Dev nD) : V2 m ρ c main_v3 = (dat0 (V1 m ρ) c).arrAt 3 cfg0.N :=
  W2_arr m ρ c 3

/-! ### The first product's inputs at entry, as terms of the launch arguments -/

/-- `main_arg2` (the inverse wavelets) is as launched when the first product is entered. -/
theorem V1_main_arg2 (c : Dev nD) : V1 m ρ c main_arg2 = m ((c : Thread nD τ).loc main_arg2) :=
  (W1_of_ne m ρ c main_arg2 (by decide) (by decide) (by decide)).trans rfl

/-- `main_v1` holds the features times the weights, converted to the narrow format. -/
theorem V1_main_v1 (c : Dev nD) : V1 m ρ c main_v1
    = truncf .bf16 (Host.dotGeneral dot_S16384x32_S32x32_S16384x32_1_0_0_1_n_n (some .fp32)
        (m ((c : Thread nD τ).loc main_arg0)) (m ((c : Thread nD τ).loc main_arg4))) bitsLt_bf16_f32 := by
  show StableHlo.after hostOps0 (W0 m ρ c) (Proc.devRef .tc main_v1) = _
  open Idealize.ShloMosaic.StableHlo in after_results

/-- `main_v2` holds the diagonal as a column. -/
theorem V1_main_v2 (c : Dev nD) : V1 m ρ c main_v2
    = fun i => (rfl : (main_arg3 : Ref sig .tc).ty.elt = (main_v2 : Ref sig .tc).ty.elt) ▸
        shapeCast (main_v2 : Ref sig .tc).ty.shape (m ((c : Thread nD τ).loc main_arg3)) shapeCasts_S16384_S16384x1 i := by
  show StableHlo.after hostOps0 (W0 m ρ c) (Proc.devRef .tc main_v2) = _
  open Idealize.ShloMosaic.StableHlo in after_results

/-- The same, the column as the plain recast of the launched diagonal. -/
theorem V1_main_v2_eq (c : Dev nD) : (V1 m ρ c main_v2 : S16384x1.Idx → Elt F .f32)
    = shapeCast S16384x1 (m ((c : Thread nD τ).loc main_arg3) : S16384.Idx → Elt F .f32) shapeCasts_S16384_S16384x1 :=
  (V1_main_v2 m ρ c).trans rfl

/-! ## The proof data family and the thread state -/

/-- The prefetched tables' admissible contents: no pipeline has a table. -/
abbrev adm : (p : Fin 2) → (pcfgs (F := F) p).Adm := fun p => (cfgs p).toPCfg_adm
/-- Both pipelines' proof data, each at its region's entry contents: a literal `match` on the pipeline, so that at a
    numeral it reduces to that region's. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)

/-- No host operation allocates a buffer. -/
theorem hostOps0_fresh : (hostOps0 : List (HloOp τ sig (Elt F))).Forall fun op => op.fresh = ∅ := by
  simp only [List.Forall]; repeat' constructor
/-- The host operations as a segment: over the unscoped references from the launch contents, `R` riding along; it
    leaves those references at `W1`. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the final contents `W3`, the generator register
    at some state. -/
abbrev Tₙ (c : Dev nD) : sProp 𝕄 := iprop(StableHlo.held (c : Thread nD τ) (Pipeline.ucRefs τ sig) (W3 m ρ c) ∗ ∃ r, prngReg c r)

/-! ## The regions as segments

Each region's invariant carries its accumulator between grid points, so it is the class invariant `ΦA` only at the two
ends, through the region's own `hinK` / `houtK`: the generator register enters `ΦA` beside the scoped rest, `ΦA` enters
the invariant at point 0; at the last point the invariant gives `ΦA` back, which gives the register and the scoped rest. -/

set_option backward.isDefEq.respectTransparency.types false in
/-- THE FIRST PRODUCT (custom_call 0) over the thread state: entered from every unscoped buffer at `W1`, left at `W2`. Its
    four arrays are split out of the unscoped buffers and put back at the exit contents; nothing owed; no semaphore of
    the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND PRODUCT (custom_call 1) over the thread state: entered from every unscoped buffer at `W2`, left at `W3`,
    what the launch reads at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host operations from the launch contents, then one region per product. -/
abbrev segs : List (Pipeline.Seg (pcfgs (F := F)) adm (pdats m ρ) () defs₀ 𝒱₀ L lv) :=
  [ .host (hseg0 m ρ),
    .region (reg0 m ρ),
    .region (reg1 m ρ) ]
/-- @main IS the run of the segments: @main as the chain of its items, and the segments' run against that chain. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and every final memory holds, on every core, each unscoped buffer at
    the fold's last contents `W3`: the launch over the three segments, the last thread state read against the final
    state. The frame and the result's value are both read off this. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- THE RESULT AND THE ARGUMENTS: every final memory holds in `main_v4` what the second product's pipeline leaves in its
    output window, and each argument as launched — what the value of the result is computed from. -/
theorem run_value : θ_run defs (onTc (τ := τ) (main (F := F))) ⟨m, fun _ => 0, ρ⟩ (fun r => ∀ c : Dev nD,
      r.2.mem ((c.tc : Thread nD τ).loc main_v4) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (W3_main_v4 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

/-- THE FRAME, at any `F`: every weakly fair execution of @main terminates, nothing faulting, and every final memory has
    the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_value m ρ)

/-- info: 'Cert.KernelIdeal.Hand.run_all' depends on axioms: [propext, Classical.choice, Quot.sound] -/
#guard_msgs in #print axioms run_all

end Cert.KernelIdeal.Hand

end
-- ==== Proof.Spec.lean ====
/-
  The specification of the hypergraph-wavelet layer, index by index, over the extended reals, and the law that
  regroups a sum of 16384 terms into four consecutive blocks of 4096.

  With features `a0 : [16384, 32]`, wavelets `a1 : [16384, 16384]`, inverse wavelets `a2 : [16384, 16384]`, the diagonal
  filter `a3 : [16384]` and the weight matrix `a4 : [32, 32]`, the layer is

      out = a1 · (diag a3 · (a2 · (a0 · a4)))

  written here entry by entry:
      proj (r, q) = ∑ k < 32,    a0 (r, k) * a4 (k, q)
      mid  (r, q) = (∑ k < 16384, a2 (r, k) * proj (k, q)) * a3 r
      out  (r, q) = ∑ k < 16384, a1 (r, k) * mid (k, q)
  Every operation is the extended reals' own; nothing here depends on the entries being finite.

  A sum over `Fin 16384` is the sum of its four blocks `[4096 b, 4096 b + 4096)`, `b = 0, 1, 2, 3`, added one after the
  other onto a starting value: addition of extended reals is commutative and associative, so the grouping and the
  order do not matter (`sum_blocks`, `add_sum_blocks`).
-/
import Idealize.ShloMosaic.PureOps.Ideal
import Idealize.ShloMosaic.Lib.ValueIdx
import Mathlib.Algebra.BigOperators.Fin
import Mathlib.Data.Fintype.BigOperators

noncomputable section

open scoped BigOperators

namespace Cert.Spec

open Idealize.ShloMosaic Idealize.ShloMosaic.ValueIdx

/-- The shape of the features, of both intermediate products and of the result: 16384 rows of 32 entries. -/
abbrev SRows : Shape := ⟨2, ![16384, 32]⟩
/-- The shape of the two wavelet matrices. -/
abbrev SSquare : Shape := ⟨2, ![16384, 16384]⟩
/-- The shape of the diagonal filter. -/
abbrev SDiag : Shape := ⟨1, ![16384]⟩
/-- The shape of the weight matrix. -/
abbrev SWeight : Shape := ⟨2, ![32, 32]⟩

/-! ## The layer, entry by entry -/

/-- The projection `a0 · a4` at row `r`, column `q`. -/
def projAt (a0 : SRows.Idx → EReal) (a4 : SWeight.Idx → EReal) (r : Fin 16384) (q : Fin 32) : EReal :=
  ∑ k : Fin 32, a0 (ix2 r k) * a4 (ix2 k q)

/-- The projection `a0 · a4` as an array. -/
def proj (a0 : SRows.Idx → EReal) (a4 : SWeight.Idx → EReal) : SRows.Idx → EReal :=
  fun i => projAt a0 a4 (i 0) (i 1)

/-- The filtered product `diag a3 · (a2 · (a0 · a4))` at row `r`, column `q`: the row's sum, times the row's filter entry. -/
def midAt (a0 : SRows.Idx → EReal) (a2 : SSquare.Idx → EReal) (a3 : SDiag.Idx → EReal) (a4 : SWeight.Idx → EReal)
    (r : Fin 16384) (q : Fin 32) : EReal :=
  (∑ k : Fin 16384, a2 (ix2 r k) * proj a0 a4 (ix2 k q)) * a3 (ix1 r)

/-- The filtered product as an array. -/
def mid (a0 : SRows.Idx → EReal) (a2 : SSquare.Idx → EReal) (a3 : SDiag.Idx → EReal) (a4 : SWeight.Idx → EReal) :
    SRows.Idx → EReal :=
  fun i => midAt a0 a2 a3 a4 (i 0) (i 1)

/-- The layer's result `a1 · (diag a3 · (a2 · (a0 · a4)))` at row `r`, column `q`. -/
def outAt (a0 : SRows.Idx → EReal) (a1 a2 : SSquare.Idx → EReal) (a3 : SDiag.Idx → EReal) (a4 : SWeight.Idx → EReal)
    (r : Fin 16384) (q : Fin 32) : EReal :=
  ∑ k : Fin 16384, a1 (ix2 r k) * mid a0 a2 a3 a4 (ix2 k q)

/-- The layer's result as an array. -/
def out (a0 : SRows.Idx → EReal) (a1 a2 : SSquare.Idx → EReal) (a3 : SDiag.Idx → EReal) (a4 : SWeight.Idx → EReal) :
    SRows.Idx → EReal :=
  fun i => outAt a0 a1 a2 a3 a4 (i 0) (i 1)

/-- The projection at the index `(r, q)`. -/
theorem proj_apply (a0 : SRows.Idx → EReal) (a4 : SWeight.Idx → EReal) (r : Fin 16384) (q : Fin 32) :
    proj a0 a4 (ix2 r q) = ∑ k : Fin 32, a0 (ix2 r k) * a4 (ix2 k q) := rfl

/-- The filtered product at the index `(r, q)`. -/
theorem mid_apply (a0 : SRows.Idx → EReal) (a2 : SSquare.Idx → EReal) (a3 : SDiag.Idx → EReal) (a4 : SWeight.Idx → EReal)
    (r : Fin 16384) (q : Fin 32) :
    mid a0 a2 a3 a4 (ix2 r q) = (∑ k : Fin 16384, a2 (ix2 r k) * proj a0 a4 (ix2 k q)) * a3 (ix1 r) := rfl

/-- The result at the index `(r, q)`. -/
theorem out_apply (a0 : SRows.Idx → EReal) (a1 a2 : SSquare.Idx → EReal) (a3 : SDiag.Idx → EReal) (a4 : SWeight.Idx → EReal)
    (r : Fin 16384) (q : Fin 32) :
    out a0 a1 a2 a3 a4 (ix2 r q) = ∑ k : Fin 16384, a1 (ix2 r k) * mid a0 a2 a3 a4 (ix2 k q) := rfl

/-! ## A sum of 16384 terms in four blocks of 4096 -/

/-- Entry `j` of block `b`: the index `4096 b + j`. -/
def blk (b : Fin 4) (j : Fin 4096) : Fin 16384 := ⟨b.val * 4096 + j.val, by omega⟩

@[simp] theorem blk_val (b : Fin 4) (j : Fin 4096) : (blk b j).val = b.val * 4096 + j.val := rfl

/-- Every index below 16384 lies in exactly one block, at exactly one place: quotient and remainder by 4096. -/
def blkEquiv : Fin 4 × Fin 4096 ≃ Fin 16384 where
  toFun p := blk p.1 p.2
  invFun k := (⟨k.val / 4096, by omega⟩, ⟨k.val % 4096, by omega⟩)
  left_inv p := by
    obtain ⟨b, j⟩ := p
    refine Prod.ext (Fin.ext ?_) (Fin.ext ?_)
    · show (b.val * 4096 + j.val) / 4096 = b.val
      omega
    · show (b.val * 4096 + j.val) % 4096 = j.val
      omega
  right_inv k := by
    refine Fin.ext ?_
    show k.val / 4096 * 4096 + k.val % 4096 = k.val
    omega

/-- In any commutative additive monoid a sum over `Fin 16384` is the sum of its four blocks. -/
theorem sum_eq_sum_blocks {M : Type*} [AddCommMonoid M] (f : Fin 16384 → M) :
    ∑ k : Fin 16384, f k
      = (∑ j : Fin 4096, f (blk 0 j)) + (∑ j : Fin 4096, f (blk 1 j)) + (∑ j : Fin 4096, f (blk 2 j))
        + (∑ j : Fin 4096, f (blk 3 j)) := by
  rw [← Equiv.sum_comp blkEquiv f, Fintype.sum_prod_type, Fin.sum_univ_four]
  rfl

/-- The four blocks added one after the other onto a starting value `z` give `z` plus the whole sum. -/
theorem add_sum_blocks {M : Type*} [AddCommMonoid M] (z : M) (f : Fin 16384 → M) :
    (((z + ∑ j : Fin 4096, f (blk 0 j)) + ∑ j : Fin 4096, f (blk 1 j)) + ∑ j : Fin 4096, f (blk 2 j))
        + ∑ j : Fin 4096, f (blk 3 j)
      = z + ∑ k : Fin 16384, f k := by
  rw [sum_eq_sum_blocks f]
  simp only [add_assoc]

/-- The four blocks added one after the other onto zero give the whole sum: extended-real addition is commutative and
    associative, so no entry need be finite. -/
theorem sum_blocks (f : Fin 16384 → EReal) :
    ((((0 : EReal) + ∑ j : Fin 4096, f (blk 0 j)) + ∑ j : Fin 4096, f (blk 1 j)) + ∑ j : Fin 4096, f (blk 2 j))
        + ∑ j : Fin 4096, f (blk 3 j)
      = ∑ k : Fin 16384, f k := by
  rw [add_sum_blocks, zero_add]

end Cert.Spec

end
-- ==== Proof.SpecBlocks.lean ====
/-
  The regrouping law at the layer's two big products: a row's 16384-term sum, taken as four blocks of 4096 columns
  added one after the other onto zero, is the specification's entry.

  For the filtered product the four blocks' total is multiplied by the row's filter entry on the right; for the result
  the total is the entry itself. Row `r` of the 16384 is row `p` of row block `m`: `r = 512 m + p`.
-/
import proofs.«177444_j42442866819263_2_alg».proof.Proof.Spec

noncomputable section

open scoped BigOperators

namespace Cert.Spec

open Idealize.ShloMosaic Idealize.ShloMosaic.ValueIdx

/-- The filtered product at `(r, q)` from the four column blocks of row `r` of `a2` against the matching row blocks of the
    projection, accumulated onto zero and scaled by the filter's entry `r` on the right. -/
theorem mid_blocks (a0 : SRows.Idx → EReal) (a2 : SSquare.Idx → EReal) (a3 : SDiag.Idx → EReal) (a4 : SWeight.Idx → EReal)
    (r : Fin 16384) (q : Fin 32) :
    (((((0 : EReal) + ∑ j : Fin 4096, a2 (ix2 r (blk 0 j)) * proj a0 a4 (ix2 (blk 0 j) q))
          + ∑ j : Fin 4096, a2 (ix2 r (blk 1 j)) * proj a0 a4 (ix2 (blk 1 j) q))
          + ∑ j : Fin 4096, a2 (ix2 r (blk 2 j)) * proj a0 a4 (ix2 (blk 2 j) q))
          + ∑ j : Fin 4096, a2 (ix2 r (blk 3 j)) * proj a0 a4 (ix2 (blk 3 j) q)) * a3 (ix1 r)
      = mid a0 a2 a3 a4 (ix2 r q) := by
  rw [mid_apply, sum_blocks fun k => a2 (ix2 r k) * proj a0 a4 (ix2 k q)]

/-- The result at `(r, q)` from the four column blocks of row `r` of `a1` against the matching row blocks of the filtered
    product, accumulated onto zero. -/
theorem out_blocks (a0 : SRows.Idx → EReal) (a1 a2 : SSquare.Idx → EReal) (a3 : SDiag.Idx → EReal) (a4 : SWeight.Idx → EReal)
    (r : Fin 16384) (q : Fin 32) :
    ((((0 : EReal) + ∑ j : Fin 4096, a1 (ix2 r (blk 0 j)) * mid a0 a2 a3 a4 (ix2 (blk 0 j) q))
          + ∑ j : Fin 4096, a1 (ix2 r (blk 1 j)) * mid a0 a2 a3 a4 (ix2 (blk 1 j) q))
          + ∑ j : Fin 4096, a1 (ix2 r (blk 2 j)) * mid a0 a2 a3 a4 (ix2 (blk 2 j) q))
          + ∑ j : Fin 4096, a1 (ix2 r (blk 3 j)) * mid a0 a2 a3 a4 (ix2 (blk 3 j) q)
      = out a0 a1 a2 a3 a4 (ix2 r q) := by
  rw [out_apply, sum_blocks fun k => a1 (ix2 r k) * mid a0 a2 a3 a4 (ix2 k q)]

/-! ## Rows in blocks of 512 -/

/-- Row `p` of row block `m`: the row `512 m + p`. -/
def rowOf (m : Fin 32) (p : Fin 512) : Fin 16384 := ⟨m.val * 512 + p.val, by omega⟩

@[simp] theorem rowOf_val (m : Fin 32) (p : Fin 512) : (rowOf m p).val = m.val * 512 + p.val := rfl

/-- The row block a row lies in … -/
def rowBlock (r : Fin 16384) : Fin 32 := ⟨r.val / 512, by omega⟩
/-- … and its place there. -/
def rowIn (r : Fin 16384) : Fin 512 := ⟨r.val % 512, by omega⟩

@[simp] theorem rowBlock_val (r : Fin 16384) : (rowBlock r).val = r.val / 512 := rfl
@[simp] theorem rowIn_val (r : Fin 16384) : (rowIn r).val = r.val % 512 := rfl

/-- Every row is row `rowIn r` of row block `rowBlock r`. -/
theorem rowOf_rowBlock_rowIn (r : Fin 16384) : rowOf (rowBlock r) (rowIn r) = r :=
  Fin.ext (by show r.val / 512 * 512 + r.val % 512 = r.val; omega)

/-- A row determines its block and its place. -/
theorem rowBlock_rowOf (m : Fin 32) (p : Fin 512) : rowBlock (rowOf m p) = m :=
  Fin.ext (by show (m.val * 512 + p.val) / 512 = m.val; omega)
theorem rowIn_rowOf (m : Fin 32) (p : Fin 512) : rowIn (rowOf m p) = p :=
  Fin.ext (by show (m.val * 512 + p.val) % 512 = p.val; omega)

/-- A column's block and its place there, likewise (`blk`'s inverse). -/
def colBlock (k : Fin 16384) : Fin 4 := ⟨k.val / 4096, by omega⟩
def colIn (k : Fin 16384) : Fin 4096 := ⟨k.val % 4096, by omega⟩
theorem blk_colBlock_colIn (k : Fin 16384) : blk (colBlock k) (colIn k) = k :=
  Fin.ext (by show k.val / 4096 * 4096 + k.val % 4096 = k.val; omega)

end Cert.Spec

end
-- ==== Proof.KI.Acc.lean ====
/-
  Four block sums added one after the other onto zero: the partial sums, and their total as the specification's entries.

  For a matrix `A : [16384, 16384]` and an array `X : [16384, 32]`, `blockSum A X r q b` is the part of the entry
  `(A · X) (r, q)` that comes from the columns `4096 b … 4096 b + 4095` of row `r` of `A`. `accTo S k` is what an accumulator
  started at zero holds after the terms `S 0 … S k` have been added in order.
-/
import proofs.«177444_j42442866819263_2_alg».proof.Proof.SpecBlocks

noncomputable section

open scoped BigOperators

namespace Cert.Spec

open Idealize.ShloMosaic Idealize.ShloMosaic.ValueIdx

/-- Column block `b` of row `r` of `A` against row block `b` of column `q` of `X`. -/
def blockSum (A : SSquare.Idx → EReal) (X : SRows.Idx → EReal) (r : Fin 16384) (q : Fin 32) (b : Fin 4) : EReal :=
  ∑ j : Fin 4096, A (ix2 r (blk b j)) * X (ix2 (blk b j) q)

/-- The partial sums of four terms added one after the other onto zero. -/
def accTo (S : Fin 4 → EReal) : Fin 4 → EReal
  | ⟨0, _⟩ => 0 + S 0
  | ⟨1, _⟩ => 0 + S 0 + S 1
  | ⟨2, _⟩ => 0 + S 0 + S 1 + S 2
  | ⟨3, _⟩ => 0 + S 0 + S 1 + S 2 + S 3

theorem accTo_zero (S : Fin 4 → EReal) : accTo S 0 = 0 + S 0 := rfl
theorem accTo_three (S : Fin 4 → EReal) : accTo S 3 = 0 + S 0 + S 1 + S 2 + S 3 := rfl

/-- Adding the next term to a partial sum gives the next partial sum. -/
theorem accTo_succ (S : Fin 4 → EReal) (k' k : Fin 4) (h : k'.val + 1 = k.val) : accTo S k' + S k = accTo S k := by
  obtain ⟨a, ha⟩ := k'
  obtain ⟨b, hb⟩ := k
  dsimp only at h
  subst h
  match a, ha, hb with
  | 0, _, _ => rfl
  | 1, _, _ => rfl
  | 2, _, _ => rfl
  | a + 3, _, hb => exact absurd hb (by omega)

/-- All four block sums of a row of `a2` against the projection, scaled by the row's filter entry, are the filtered
    product's entry. -/
theorem accTo_mid (a0 : SRows.Idx → EReal) (a2 : SSquare.Idx → EReal) (a3 : SDiag.Idx → EReal) (a4 : SWeight.Idx → EReal)
    (r : Fin 16384) (q : Fin 32) :
    accTo (blockSum a2 (proj a0 a4) r q) 3 * a3 (ix1 r) = mid a0 a2 a3 a4 (ix2 r q) :=
  mid_blocks a0 a2 a3 a4 r q

/-- All four block sums of a row of `a1` against the filtered product are the result's entry. -/
theorem accTo_out (a0 : SRows.Idx → EReal) (a1 a2 : SSquare.Idx → EReal) (a3 : SDiag.Idx → EReal) (a4 : SWeight.Idx → EReal)
    (r : Fin 16384) (q : Fin 32) :
    accTo (blockSum a1 (mid a0 a2 a3 a4) r q) 3 = out a0 a1 a2 a3 a4 (ix2 r q) :=
  out_blocks a0 a1 a2 a3 a4 r q

/-! ## The two products as arrays of accumulated block sums -/

/-- Entry `r` of a `[16384, 1]` column. -/
def colAt (y : (⟨2, ![16384, 1]⟩ : Shape).Idx → EReal) (r : Fin 16384) : EReal := y (ix2 r (0 : Fin 1))

theorem colAt_apply (y : (⟨2, ![16384, 1]⟩ : Shape).Idx → EReal) (r : Fin 16384) : colAt y r = y (ix2 r (0 : Fin 1)) := rfl

/-- The array whose entry `(r, q)` is the four block sums of row `r` of `A` against `X`, accumulated onto zero and scaled
    by entry `(r, 0)` of the column `D`. -/
def scaledAcc (A : SSquare.Idx → EReal) (X : SRows.Idx → EReal) (D : (⟨2, ![16384, 1]⟩ : Shape).Idx → EReal) :
    SRows.Idx → EReal :=
  fun i => accTo (blockSum A X (i 0) (i 1)) 3 * colAt D (i 0)

/-- The array whose entry `(r, q)` is the four block sums of row `r` of `A` against `Y`, accumulated onto zero. -/
def plainAcc (A : SSquare.Idx → EReal) (Y : SRows.Idx → EReal) : SRows.Idx → EReal :=
  fun i => accTo (blockSum A Y (i 0) (i 1)) 3

theorem scaledAcc_apply (A : SSquare.Idx → EReal) (X : SRows.Idx → EReal) (D : (⟨2, ![16384, 1]⟩ : Shape).Idx → EReal)
    (r : Fin 16384) (q : Fin 32) :
    scaledAcc A X D (ix2 r q) = accTo (blockSum A X r q) 3 * colAt D r := rfl

theorem plainAcc_apply (A : SSquare.Idx → EReal) (Y : SRows.Idx → EReal) (r : Fin 16384) (q : Fin 32) :
    plainAcc A Y (ix2 r q) = accTo (blockSum A Y r q) 3 := rfl

/-- With the projection for `X` and the filter as a column for `D`, the scaled accumulation is the filtered product. -/
theorem scaledAcc_eq_mid (a0 : SRows.Idx → EReal) (a2 : SSquare.Idx → EReal) (a3 : SDiag.Idx → EReal) (a4 : SWeight.Idx → EReal)
    (D : (⟨2, ![16384, 1]⟩ : Shape).Idx → EReal) (hD : ∀ r : Fin 16384, colAt D r = a3 (ix1 r)) :
    scaledAcc a2 (proj a0 a4) D = mid a0 a2 a3 a4 := by
  funext i
  obtain ⟨r, q, rfl⟩ : ∃ (r : Fin 16384) (q : Fin 32), i = ix2 r q := ⟨i 0, i 1, eq_ix2 i⟩
  rw [scaledAcc_apply, hD, accTo_mid]

/-- With the filtered product for `Y`, the accumulation is the layer's result. -/
theorem plainAcc_eq_out (a0 : SRows.Idx → EReal) (a1 a2 : SSquare.Idx → EReal) (a3 : SDiag.Idx → EReal) (a4 : SWeight.Idx → EReal) :
    plainAcc a1 (mid a0 a2 a3 a4) = out a0 a1 a2 a3 a4 := by
  funext i
  obtain ⟨r, q, rfl⟩ : ∃ (r : Fin 16384) (q : Fin 32), i = ix2 r q := ⟨i 0, i 1, eq_ix2 i⟩
  rw [plainAcc_apply, accTo_out]

end Cert.Spec

end
-- ==== Proof.KI.R0Pieces.lean ====
/-
  The first product, point by point: what the body leaves in the accumulator and in the output block, as values of
  the three input blocks of the point and of the accumulator it found.

  At a point with k = 0 the accumulator ends at zero plus the block product; at a point with k > 0 at what it held plus
  the block product; and at k = 3 the output block ends at that last accumulator scaled, row by row, by the diag column.
  Every store and load of the body goes through a whole buffer, so each is read back as the stored value itself.
-/
import proofs.«177444_j42442866819263_2_alg».proof.Proof.KI.R0Frame
import Idealize.ShloMosaic.Lib.Pipeline.Value
import Idealize.ShloMosaic.Lib.ValueIdx
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- A rectangle at offsets `(0, 0)` starts at the origin. -/
theorem hz : (![0, 0] : Fin 2 → Nat) = fun _ => 0 := funext fun a => by fin_cases a <;> rfl

/-- The accumulator, a whole buffer, read back at the contents it was given. -/
theorem scratch_read (h : (scM0 : Memref sig .tc .vmem S512x32 .f32).IsWhole) (xs : Vec F S512x32 .f32) :
    View.read (Elt F) (View.whole cc0_scratch0) (h.unread xs) = xs := h.read_unread xs

/-- k = 0: the accumulator is zeroed, read back, and receives the block product. -/
theorem sout0_A_eq (c : Dev nD) (t : Fin cfg0.N) (h0 : t.val % 4 = 0) (h1 : ¬t.val % 4 = 3) :
    sout0_A V c t h0 h1 = k0_pay2 (iblk0 V c 1 t) (iblk0 V c 0 t) k0_pay1 := by
  unfold sout0_A
  rw [View.read_writes_eq_canon _ _ _ (scover0_A V c t h0 h1)]
  unfold runA0 kernelRun0_A
  dsimp only
  sl_unfold_words
  rw [View.canon_cons_unit_zero (S := S512x32) hz, View.readCov_unit_zero (S := S512x32) _ hz]
  simp only [View.readAt_eq_ld, Memref.IsWhole.read_unread, scratch_read, View.ld_unit_zero (S := S512x4096) hz, View.ld_unit_zero (S := S4096x32) hz, View.ld_unit_zero (S := S512x32) hz, View.ld_unit_zero (S := S512x1) hz]

/-- 0 < k < 3: the accumulator receives the block product on top of what it held. -/
theorem sout0_B_eq (c : Dev nD) (t : Fin cfg0.N) (h0 : ¬t.val % 4 = 0) (h1 : ¬t.val % 4 = 3) (xs : Vec F S512x32 .f32) :
    sout0_B V c t h0 h1 xs = k0_pay2 (iblk0 V c 1 t) (iblk0 V c 0 t) xs := by
  unfold sout0_B
  rw [View.read_writes_eq_canon _ _ _ (scover0_B V c t h0 h1 xs)]
  unfold runB0 kernelRun0_B
  dsimp only
  rw [View.canon_unit_zero hz]
  simp only [View.readAt_eq_ld, Memref.IsWhole.read_unread, scratch_read, View.ld_unit_zero (S := S512x4096) hz, View.ld_unit_zero (S := S4096x32) hz, View.ld_unit_zero (S := S512x32) hz, View.ld_unit_zero (S := S512x1) hz]

/-- k = 3: the accumulator receives the last block product on top of what it held … -/
theorem sout0_C_eq (c : Dev nD) (t : Fin cfg0.N) (h0 : ¬t.val % 4 = 0) (h1 : t.val % 4 = 3) (xs : Vec F S512x32 .f32) :
    sout0_C V c t h0 h1 xs = k0_pay2 (iblk0 V c 1 t) (iblk0 V c 0 t) xs := by
  unfold sout0_C
  rw [View.read_writes_eq_canon _ _ _ (scover0_C V c t h0 h1 xs)]
  unfold runC0 kernelRun0_C
  dsimp only
  sl_unfold_words
  rw [View.canon_unit_zero hz]
  simp only [View.readAt_eq_ld, Memref.IsWhole.read_unread, scratch_read, View.ld_unit_zero (S := S512x4096) hz, View.ld_unit_zero (S := S4096x32) hz, View.ld_unit_zero (S := S512x32) hz, View.ld_unit_zero (S := S512x1) hz]

/-- … and the output block is that accumulator scaled by the diag column block. -/
theorem out0_C_eq (c : Dev nD) (t : Fin cfg0.N) (h0 : ¬t.val % 4 = 0) (h1 : t.val % 4 = 3) (xs : Vec F S512x32 .f32) :
    out0_C V c t h0 h1 xs = k0_pay3 (k0_pay2 (iblk0 V c 1 t) (iblk0 V c 0 t) xs) (iblk0 V c 2 t) := by
  unfold out0_C
  rw [View.read_writes_eq_canon _ _ _ (cover0_C V c t h0 h1 xs)]
  unfold runC0 kernelRun0_C
  dsimp only
  sl_unfold_words
  rw [View.canon_unit_zero hz, View.readCov_unit_zero (S := S512x32) _ hz]
  simp only [View.readAt_eq_ld, Memref.IsWhole.read_unread, scratch_read, View.ld_unit_zero (S := S512x4096) hz, View.ld_unit_zero (S := S4096x32) hz, View.ld_unit_zero (S := S512x32) hz, View.ld_unit_zero (S := S512x1) hz]

end Cert.KernelIdeal.HandValue

end
-- ==== Proof.KI.R0Reads.lean ====
/-
  The first product's input blocks as parts of the arrays. Point t of the grid (32, 4), counted row-major, is row
  block m = t / 4 and column block k = t % 4. At that point the wavelets_inv block is rows 512 m + p and columns
  4096 k + j of the matrix, the x block is rows 4096 k + j of x, and the diag block is rows 512 m + p of the diag column.
-/
import proofs.«177444_j42442866819263_2_alg».proof.Proof.KI.R0Frame
import proofs.«177444_j42442866819263_2_alg».proof.Proof.SpecBlocks
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-! ## The index maps over the grid -/

/-- The x window's block index at point `t` is `(t % 4, 0)`. -/
theorem idx0_0 : ∀ t : Fin cfg0.N, win0_0.index t 0 = t.val % 4 ∧ win0_0.index t 1 = 0 :=
  (by decide +kernel : ∀ t : Fin grid0.N, win0_0.index t 0 = t.val % 4 ∧ win0_0.index t 1 = 0)
/-- The wavelets_inv window's block index at point `t` is `(t / 4, t % 4)`. -/
theorem idx0_1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
/-- The diag window's block index at point `t` is `(t / 4, 0)`. -/
theorem idx0_2 : ∀ t : Fin cfg0.N, win0_2.index t 0 = t.val / 4 ∧ win0_2.index t 1 = 0 :=
  (by decide +kernel : ∀ t : Fin grid0.N, win0_2.index t 0 = t.val / 4 ∧ win0_2.index t 1 = 0)
/-- The output window's block index at point `t` is `(t / 4, 0)`. -/
theorem idx0_3 : ∀ t : Fin cfg0.N, win0_3.index t 0 = t.val / 4 ∧ win0_3.index t 1 = 0 :=
  (by decide +kernel : ∀ t : Fin grid0.N, win0_3.index t 0 = t.val / 4 ∧ win0_3.index t 1 = 0)

/-- A point's row block is below 32 … -/
theorem tdiv (t : Fin cfg0.N) : t.val / 4 < 32 := by have := t.isLt; have : cfg0.N = 128 := N_0; omega
/-- … and its column block below 4. -/
theorem tmod (t : Fin cfg0.N) : t.val % 4 < 4 := by omega

/-- The row block of point `t`. -/
abbrev mOf (t : Fin cfg0.N) : Fin 32 := ⟨t.val / 4, tdiv t⟩
/-- The column block of point `t`. -/
abbrev kOf (t : Fin cfg0.N) : Fin 4 := ⟨t.val % 4, tmod t⟩

/-! ## The blocks at an entry -/

/-- The wavelets_inv block at point `t`, entry `(p, j)`: the matrix at row `512 m + p`, column `4096 k + j`. -/
theorem iblk0_1_apply (c : Dev nD) (t : Fin cfg0.N) (p : Fin 512) (j : Fin 4096) :
    (iblk0 V c 1 t : Vec F S512x4096 .f32) (ix2 p j)
      = (V c main_arg2 : S16384x16384.Idx → Elt F .f32) (ix2 (Cert.Spec.rowOf (mOf t) p) (Cert.Spec.blk (kOf t) j)) := by
  unfold iblk0
  rw [View.read_apply]
  show V c main_arg2 _ = V c main_arg2 _
  refine congrArg (V c main_arg2) (funext fun a => Fin.ext ?_)
  match a with
  | ⟨0, _⟩ =>
    show win0_1.index t 0 * 512 + 1 * p.val = (t.val / 4) * 512 + p.val
    rw [(idx0_1 t).1]; omega
  | ⟨1, _⟩ =>
    show win0_1.index t 1 * 4096 + 1 * j.val = (t.val % 4) * 4096 + j.val
    rw [(idx0_1 t).2]; omega

/-- The x block at point `t`, entry `(j, q)`: x at row `4096 k + j`, column `q`. -/
theorem iblk0_0_apply (c : Dev nD) (t : Fin cfg0.N) (j : Fin 4096) (q : Fin 32) :
    (iblk0 V c 0 t : Vec F S4096x32 .bf16) (ix2 j q)
      = (V c main_v1 : S16384x32.Idx → Elt F .bf16) (ix2 (Cert.Spec.blk (kOf t) j) q) := by
  unfold iblk0
  rw [View.read_apply]
  show V c main_v1 _ = V c main_v1 _
  refine congrArg (V c main_v1) (funext fun a => Fin.ext ?_)
  match a with
  | ⟨0, _⟩ =>
    show win0_0.index t 0 * 4096 + 1 * j.val = (t.val % 4) * 4096 + j.val
    rw [(idx0_0 t).1]; omega
  | ⟨1, _⟩ =>
    show win0_0.index t 1 * 32 + 1 * q.val = q.val
    rw [(idx0_0 t).2]; omega

/-- The diag column block at point `t`, entry `(p, 0)`: the diag column at row `512 m + p`. -/
theorem iblk0_2_apply (c : Dev nD) (t : Fin cfg0.N) (p : Fin 512) :
    (iblk0 V c 2 t : Vec F S512x1 .f32) (ix2 p (0 : Fin 1))
      = (V c main_v2 : S16384x1.Idx → Elt F .f32) (ix2 (Cert.Spec.rowOf (mOf t) p) (0 : Fin 1)) := by
  unfold iblk0
  rw [View.read_apply]
  show V c main_v2 _ = V c main_v2 _
  refine congrArg (V c main_v2) (funext fun a => Fin.ext ?_)
  match a with
  | ⟨0, _⟩ =>
    show win0_2.index t 0 * 512 + 1 * p.val = (t.val / 4) * 512 + p.val
    rw [(idx0_2 t).1]; omega
  | ⟨1, _⟩ =>
    show win0_2.index t 1 * 1 + 1 * 0 = 0
    rw [(idx0_2 t).2]

end Cert.KernelIdeal.HandValue

end
-- ==== Proof.KI.Payloads.lean ====
/-
  The two kernels' stored values, read at one entry of a 512 × 32 block, at the ideal values.

  Both kernels keep a 512 × 32 accumulator. Its first value is zero; each step adds to it the product of a 512 × 4096
  block with a 4096 × 32 block, which at an entry `(p, q)` is the sum over the 4096 columns `j` of the left block's
  `(p, j)` times the right block's `(j, q)` (the accumulator the matrix unit starts from is the zero block, and a change
  of float format is the identity on extended reals). The first kernel's last step multiplies the accumulator, row by
  row, by a 512 × 1 column: entry `(p, q)` by the column's entry `(p, 0)`.
-/
import proofs.«177444_j42442866819263_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.HandValue

open Cert.KernelIdeal Cert.KernelIdeal.Gen Idealize.ShloMosaic Idealize.ShloMosaic.ValueIdx

/-! ## A column broadcast along its rows -/

/-- An `[a, 1]` column broadcast to `[a, b]` reads, at `(p, c)`, the column's entry `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The block product at an entry -/

/-- The contraction's left operand index at output `(p, q)` and contraction coordinate `k` is `(p, k)` … -/
theorem lhs_0 (i : S512x32.Idx) (k : dot_S512x4096_S4096x32_S512x32_1_0_0_1_n_n.contr.Idx) :
    (dot_S512x4096_S4096x32_S512x32_1_0_0_1_n_n.lhsIdx i k 0).val = (i 0).val := by
  unfold DotDims.lhsIdx
  rw [dif_neg (show ¬(0 : Fin S512x4096.rank) ∈ dot_S512x4096_S4096x32_S512x32_1_0_0_1_n_n.lhsBatch by decide),
    dif_pos (show (0 : Fin S512x4096.rank) ∈ dot_S512x4096_S4096x32_S512x32_1_0_0_1_n_n.lhsNonContracting by decide)]
  rfl
theorem lhs_1 (i : S512x32.Idx) (k : dot_S512x4096_S4096x32_S512x32_1_0_0_1_n_n.contr.Idx) :
    (dot_S512x4096_S4096x32_S512x32_1_0_0_1_n_n.lhsIdx i k 1).val = (k ⟨0, by decide⟩).val :=
  dot_S512x4096_S4096x32_S512x32_1_0_0_1_n_n.lhsIdx_val_of_single rfl i k
/-- … and the right operand index is `(k, q)`. -/
theorem rhs_0 (i : S512x32.Idx) (k : dot_S512x4096_S4096x32_S512x32_1_0_0_1_n_n.contr.Idx) :
    (dot_S512x4096_S4096x32_S512x32_1_0_0_1_n_n.rhsIdx i k 0).val = (k ⟨0, by decide⟩).val :=
  dot_S512x4096_S4096x32_S512x32_1_0_0_1_n_n.rhsIdx_val_of_single rfl i k
theorem rhs_1 (i : S512x32.Idx) (k : dot_S512x4096_S4096x32_S512x32_1_0_0_1_n_n.contr.Idx) :
    (dot_S512x4096_S4096x32_S512x32_1_0_0_1_n_n.rhsIdx i k 1).val = (i 1).val := by
  unfold DotDims.rhsIdx
  rw [dif_neg (show ¬(1 : Fin S4096x32.rank) ∈ dot_S512x4096_S4096x32_S512x32_1_0_0_1_n_n.rhsBatch by decide),
    dif_pos (show (1 : Fin S4096x32.rank) ∈ dot_S512x4096_S4096x32_S512x32_1_0_0_1_n_n.rhsNonContracting by decide)]
  rfl

/-- A 512 × 4096 block times a 4096 × 32 block, accumulated onto the zero block, at `(p, q)`: the sum over the 4096
    columns `j` of `a (p, j) * b (j, q)`. -/
theorem matmul_zero_apply {φ₁ φ₂ : FTy} (a : FVec Ideal S512x4096 φ₁) (b : FVec Ideal S4096x32 φ₂) (p : Fin 512) (q : Fin 32) :
    matmul (F := Ideal) dot_S512x4096_S4096x32_S512x32_1_0_0_1_n_n none a b (constant S512x32 .f32 0x00000000#32) (ix2 p q)
      = ∑ j : Fin 4096, a (ix2 p j) * b (ix2 j q) := by
  simp only [matmul]
  rw [Ideal.matmul_constant_zero_apply,
    ← Equiv.sum_comp (contrEquiv1 dot_S512x4096_S4096x32_S512x32_1_0_0_1_n_n 4096 rfl rfl).symm]
  refine Finset.sum_congr rfl fun k _ => ?_
  have hk := contrEquiv1_symm_val dot_S512x4096_S4096x32_S512x32_1_0_0_1_n_n 4096 rfl rfl k
  have el : dot_S512x4096_S4096x32_S512x32_1_0_0_1_n_n.lhsIdx (ix2 p q)
      ((contrEquiv1 dot_S512x4096_S4096x32_S512x32_1_0_0_1_n_n 4096 rfl rfl).symm k) = ix2 p k :=
    funext fun ax => Fin.ext (by
      match ax with
      | ⟨0, _⟩ => exact lhs_0 _ _
      | ⟨1, _⟩ => exact (lhs_1 _ _).trans hk)
  have er : dot_S512x4096_S4096x32_S512x32_1_0_0_1_n_n.rhsIdx (ix2 p q)
      ((contrEquiv1 dot_S512x4096_S4096x32_S512x32_1_0_0_1_n_n 4096 rfl rfl).symm k) = ix2 k q :=
    funext fun ax => Fin.ext (by
      match ax with
      | ⟨0, _⟩ => exact (rhs_0 _ _).trans hk
      | ⟨1, _⟩ => exact rhs_1 _ _)
  rw [el, er]

/-! ## The first kernel's three stored values -/

/-- The accumulator's first value is zero at every entry. -/
theorem k0_pay1_apply (p : Fin 512) (q : Fin 32) : k0_pay1 (F := Ideal) (ix2 p q) = 0 := by
  unfold k0_pay1
  rw [shapeCast_self]
  exact Ideal.ofBits_zero_f32

/-- One step: the accumulator's entry plus the block product's entry. -/
theorem k0_pay2_apply (v3 : Vec Ideal S512x4096 .f32) (v5 : Vec Ideal S4096x32 .bf16) (v7 : Vec Ideal S512x32 .f32)
    (p : Fin 512) (q : Fin 32) :
    k0_pay2 (F := Ideal) v3 v5 v7 (ix2 p q) = v7 (ix2 p q) + ∑ j : Fin 4096, v3 (ix2 p j) * v5 (ix2 j q) := by
  unfold k0_pay2
  rw [shapeCast_self, shapeCast_self]
  exact congrArg (v7 (ix2 p q) + ·) (matmul_zero_apply (truncf .bf16 v3 bitsLt_bf16_f32) v5 p q)

/-- The last step: the accumulator's entry times the column's entry of the same row. -/
theorem k0_pay3_apply (v16 : Vec Ideal S512x32 .f32) (v17 : Vec Ideal S512x1 .f32) (p : Fin 512) (q : Fin 32) :
    k0_pay3 (F := Ideal) v16 v17 (ix2 p q) = v16 (ix2 p q) * v17 (ix2 p (0 : Fin 1)) := by
  unfold k0_pay3
  rw [shapeCast_self]
  exact congrArg (v16 (ix2 p q) * ·) (broadcastTo_a1_ab_apply v17 broadcasts_S512x1_S512x32 p q)

/-! ## The second kernel's two stored values -/

/-- The accumulator's first value is zero at every entry. -/
theorem k1_pay1_apply (p : Fin 512) (q : Fin 32) : k1_pay1 (F := Ideal) (ix2 p q) = 0 := by
  unfold k1_pay1
  rw [shapeCast_self]
  exact Ideal.ofBits_zero_f32

/-- One step: the accumulator's entry plus the block product's entry. -/
theorem k1_pay2_apply (v3 : Vec Ideal S512x4096 .f32) (v5 : Vec Ideal S4096x32 .bf16) (v7 : Vec Ideal S512x32 .f32)
    (p : Fin 512) (q : Fin 32) :
    k1_pay2 (F := Ideal) v3 v5 v7 (ix2 p q) = v7 (ix2 p q) + ∑ j : Fin 4096, v3 (ix2 p j) * v5 (ix2 j q) := by
  unfold k1_pay2
  rw [shapeCast_self, shapeCast_self]
  exact congrArg (v7 (ix2 p q) + ·) (matmul_zero_apply (truncf .bf16 v3 bitsLt_bf16_f32) v5 p q)

end Cert.KernelIdeal.HandValue

end
-- ==== Proof.KI.R0Acc.lean ====
/-
  The first product's accumulator at the ideal values. After the body at point t = 4 m + k the accumulator holds, at
  entry (p, q), the block sums of row 512 m + p of wavelets_inv against column q of x over the column blocks 0 … k, added
  in that order onto zero: each point adds its own block sum to what the point before left, and k = 0 starts from zero.
-/
import proofs.«177444_j42442866819263_2_alg».proof.Proof.KI.R0Pieces
import proofs.«177444_j42442866819263_2_alg».proof.Proof.KI.R0Reads
import proofs.«177444_j42442866819263_2_alg».proof.Proof.KI.Payloads
import proofs.«177444_j42442866819263_2_alg».proof.Proof.KI.Acc
import Idealize.ShloMosaic.Lib.Pipeline.Value
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.Spec (rowOf blk blockSum accTo accTo_succ)

/-- One accumulation step at an entry: what the accumulator held plus the point's block product. -/
theorem step_apply (c : Dev nD) (t : Fin cfg0.N) (xs : Vec Ideal S512x32 .f32) (p : Fin 512) (q : Fin 32) :
    k0_pay2 (F := Ideal) (iblk0 V c 1 t) (iblk0 V c 0 t) xs (ix2 p q)
      = xs (ix2 p q) + blockSum (V c main_arg2) (V c main_v1) (rowOf (mOf t) p) q (kOf t) := by
  refine (k0_pay2_apply (iblk0 V c 1 t) (iblk0 V c 0 t) xs p q).trans ?_
  refine congrArg (xs (ix2 p q) + ·) (Finset.sum_congr rfl fun j _ => ?_)
  rw [iblk0_1_apply V c t p j, iblk0_0_apply V c t j q]

/-- After the body at position `n` the accumulator holds, at `(p, q)`, the partial sum up to the point's column block of
    the block sums of row `512 m + p`. -/
theorem acc_eq (c : Dev nD) : ∀ (n : ℕ) (hn : n < cfg0.N) (p : Fin 512) (q : Fin 32),
    (outsAt0 V c n hn).2 (ix2 p q)
      = accTo (blockSum (V c main_arg2) (V c main_v1) (rowOf (mOf ⟨n, hn⟩) p) q) (kOf ⟨n, hn⟩) := by
  intro n
  induction n using Nat.strong_induction_on with
  | _ n ih =>
    intro hn p q
    have hN : cfg0.N = 128 := N_0
    by_cases h0 : n % 4 = 0
    · have h1 : ¬n % 4 = 3 := by omega
      rw [outsAt0_A V c ⟨n, hn⟩ h0 h1]
      dsimp only
      rw [sout0_A_eq V c ⟨n, hn⟩ h0 h1]
      refine (step_apply V c ⟨n, hn⟩ (k0_pay1 (F := Ideal)) p q).trans ?_
      rw [k0_pay1_apply p q, show kOf ⟨n, hn⟩ = 0 from Fin.ext h0]
      rfl
    · have hprev : n - 1 < cfg0.N := by omega
      have hm : mOf ⟨n - 1, hprev⟩ = mOf ⟨n, hn⟩ := Fin.ext (by show (n - 1) / 4 = n / 4; omega)
      have hk : (kOf ⟨n - 1, hprev⟩).val + 1 = (kOf ⟨n, hn⟩).val := by show (n - 1) % 4 + 1 = n % 4; omega
      by_cases h1 : n % 4 = 3
      · rw [outsAt0_C V c ⟨n, hn⟩ h0 h1]
        dsimp only
        rw [sout0_C_eq V c ⟨n, hn⟩ h0 h1]
        refine (step_apply V c ⟨n, hn⟩ (outsAt0 V c (n - 1) hprev).2 p q).trans ?_
        rw [ih (n - 1) (by omega) hprev p q, hm]
        exact accTo_succ _ _ _ hk
      · rw [outsAt0_B V c ⟨n, hn⟩ h0 h1]
        dsimp only
        rw [sout0_B_eq V c ⟨n, hn⟩ h0 h1]
        refine (step_apply V c ⟨n, hn⟩ (outsAt0 V c (n - 1) hprev).2 p q).trans ?_
        rw [ih (n - 1) (by omega) hprev p q, hm]
        exact accTo_succ _ _ _ hk

/-- The same at a point of the grid. -/
theorem acc_at (c : Dev nD) (t : Fin cfg0.N) (p : Fin 512) (q : Fin 32) :
    (outsAt0 V c t.val t.isLt).2 (ix2 p q)
      = accTo (blockSum (V c main_arg2) (V c main_v1) (rowOf (mOf t) p) q) (kOf t) :=
  acc_eq V c t.val t.isLt p q

end Cert.KernelIdeal.HandValue

end
-- ==== Proof.KI.R0Value.lean ====
/-
  The first product's array after its region, at the ideal values: entry (r, q) is the four block sums of row r of
  wavelets_inv against column q of x, added in order onto zero, times entry r of the diag column — all of the arrays as
  the region finds them.

  At a point with k = 3 the output block is the accumulator scaled row by row by the diag block; its entry (p, q) is entry
  (512 m + p, q) of the array; and every row r is written back, by the point 4 (r / 512) + 3.
-/
import proofs.«177444_j42442866819263_2_alg».proof.Proof.KI.R0Acc
import Idealize.ShloMosaic.Lib.Pipeline.Value
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.Spec (rowOf blk blockSum accTo colAt scaledAcc)

/-- At a point with k = 3 the output block is the accumulator scaled by the diag column block. -/
theorem outs_fst (c : Dev nD) (t : Fin cfg0.N) (h0 : ¬t.val % 4 = 0) (h1 : t.val % 4 = 3) :
    (outsAt0 V c t.val t.isLt).1 = k0_pay3 (outsAt0 V c t.val t.isLt).2 (iblk0 V c 2 t) := by
  rw [outsAt0_C V c t h0 h1]
  dsimp only
  rw [out0_C_eq V c t h0 h1, sout0_C_eq V c t h0 h1]

/-- So at k = 3 the output block holds, at `(p, q)`, all four block sums of row `512 m + p` times the row's diag entry. -/
theorem out_at (c : Dev nD) (t : Fin cfg0.N) (h1 : t.val % 4 = 3) (p : Fin 512) (q : Fin 32) :
    (outsAt0 V c t.val t.isLt).1 (ix2 p q)
      = accTo (blockSum (V c main_arg2) (V c main_v1) (rowOf (mOf t) p) q) 3 * colAt (V c main_v2) (rowOf (mOf t) p) := by
  have h0 : ¬t.val % 4 = 0 := by omega
  rw [outs_fst V c t h0 h1]
  refine (k0_pay3_apply (outsAt0 V c t.val t.isLt).2 (iblk0 V c 2 t) p q).trans ?_
  rw [acc_at V c t p q, iblk0_2_apply V c t p, show kOf t = 3 from Fin.ext h1]
  rfl

/-- Entry `(p, q)` of the output block of point `t` is entry `(512 m + p, q)` of the output array. -/
theorem emb0_3 (t : Fin cfg0.N) (p : Fin 512) (q : Fin 32) :
    (((cfg0.win 3).blk t).view.emb (ix2 p q) : S16384x32.Idx) = ix2 (rowOf (mOf t) p) q := by
  funext a; apply Fin.ext
  match a with
  | ⟨0, _⟩ =>
    show win0_3.index t 0 * 512 + 1 * p.val = (t.val / 4) * 512 + p.val
    rw [(idx0_3 t).1]; omega
  | ⟨1, _⟩ =>
    show win0_3.index t 1 * 32 + 1 * q.val = q.val
    rw [(idx0_3 t).2]; omega

/-- What a point with k = 3 writes back is its block of the scaled accumulation of the arrays as the region finds them. -/
theorem flushed0_3_eq (c : Dev nD) (t : Fin cfg0.N) (hf : (cfg0.win 3).flush t = true) :
    (dat0 V c).flushed 3 t
      = ((cfg0.win 3).blk t).view.read (Elt Ideal) (scaledAcc (V c main_arg2) (V c main_v1) (V c main_v2)) := by
  have h1 : t.val % 4 = 3 := (flush0_3 t).mp hf
  show (cfg0.win 3).cut (grid0.coords t) ((dat0 V c).after 3 t) = _
  rw [after0_3]
  funext y
  obtain ⟨p, q, rfl⟩ : ∃ (p : Fin 512) (q : Fin 32), y = ix2 p q := ⟨y 0, y 1, eq_ix2 y⟩
  rw [View.read_apply]
  show (outsAt0 V c t.val t.isLt).1 (ix2 p q) = scaledAcc (V c main_arg2) (V c main_v1) (V c main_v2) (((cfg0.win 3).blk t).view.emb (ix2 p q))
  rw [out_at V c t h1 p q, emb0_3 t p q]
  rfl

/-- An entry of the output array is in point `t`'s block iff each coordinate is in the block's range. -/
theorem mem_blk0_3 (t : Fin cfg0.N) (i : S16384x32.Idx) :
    i ∈ ((cfg0.win 3).blk t).view.set ↔ ∀ a : Fin 2, win0_3.index t a * S512x32.size a ≤ (i a).val ∧ (i a).val < win0_3.index t a * S512x32.size a + S512x32.size a := by
  show i ∈ ((View.whole main_v3).slice (win0_3.rect t)).set ↔ _
  rw [View.set_slice_whole, Rect.mem_set_unit]
  exact Iff.rfl

/-- Row `r` of the output array is written back by the point `4 (r / 512) + 3`. -/
theorem cover0_3 (i : S16384x32.Idx) :
    ∃ t : Fin cfg0.N, (cfg0.win 3).flush t = true ∧ i ∈ ((cfg0.win 3).blk t).view.set := by
  have hN : cfg0.N = 128 := N_0
  have hi0 : (i 0).val < 16384 := (i 0).isLt
  have hi1 : (i 1).val < 32 := (i 1).isLt
  have ht : 4 * ((i 0).val / 512) + 3 < cfg0.N := by omega
  obtain ⟨e0, e1⟩ := idx0_3 ⟨4 * ((i 0).val / 512) + 3, ht⟩
  refine ⟨⟨4 * ((i 0).val / 512) + 3, ht⟩, (flush0_3 _).mpr (by show (4 * ((i 0).val / 512) + 3) % 4 = 3; omega), ?_⟩
  rw [mem_blk0_3]
  intro a
  match a with
  | ⟨0, _⟩ =>
    show win0_3.index ⟨4 * ((i 0).val / 512) + 3, ht⟩ 0 * 512 ≤ (i 0).val ∧ (i 0).val < win0_3.index ⟨4 * ((i 0).val / 512) + 3, ht⟩ 0 * 512 + 512
    rw [e0]
    show (4 * ((i 0).val / 512) + 3) / 4 * 512 ≤ (i 0).val ∧ (i 0).val < (4 * ((i 0).val / 512) + 3) / 4 * 512 + 512
    omega
  | ⟨1, _⟩ =>
    show win0_3.index ⟨4 * ((i 0).val / 512) + 3, ht⟩ 1 * 32 ≤ (i 1).val ∧ (i 1).val < win0_3.index ⟨4 * ((i 0).val / 512) + 3, ht⟩ 1 * 32 + 32
    rw [e1]
    omega

/-- THE FIRST PRODUCT'S ARRAY after the region: at `(r, q)` the four block sums of row `r` of wavelets_inv against x,
    accumulated onto zero, times the diag column's entry `r` — of the arrays as the region finds them. -/
theorem arrAt0_eq (c : Dev nD) :
    (dat0 V c).arrAt 3 cfg0.N
      = fun i => accTo (blockSum (V c main_arg2) (V c main_v1) (i 0) (i 1)) 3 * colAt (V c main_v2) (i 0) :=
  (dat0 V c).arrAt_eq_of_cover 3 (scaledAcc (V c main_arg2) (V c main_v1) (V c main_v2)) (flushed0_3_eq V c) cover0_3

end Cert.KernelIdeal.HandValue

end
-- ==== Proof.KI.R1Pieces.lean ====
/-
  The second product: what each case's stores leave, as the body's arithmetic of the point's input blocks.
  The accumulator after a point is the block product added to what it held before (to zero when k = 0); the output
  block at k = 3 is the accumulator.
-/
import proofs.«177444_j42442866819263_2_alg».proof.Proof.KI.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The whole-block rectangle starts at the origin. -/
theorem origin2 : (![0, 0] : Fin 2 → ℕ) = fun _ => 0 := by funext a; fin_cases a <;> rfl

/-- Reading the accumulator back gives what it was left at. -/
theorem acc_read (h : (scM1 : Memref sig .tc .vmem S512x32 .f32).IsWhole) (xs : Vec F S512x32 .f32) :
    View.read (Elt F) (View.whole cc1_scratch0) (h.unread xs) = xs := h.read_unread xs

/-- k = 0: the accumulator ends at the block product added to zero. -/
theorem sout1_A_eq (c : Dev nD) (t : Fin cfg1.N) (h0 : t.val % 4 = 0) (h1 : ¬t.val % 4 = 3) :
    sout1_A V c t h0 h1 = k1_pay2 (iblk1 V c 0 t) (iblk1 V c 1 t) (k1_pay1 (F := F)) := by
  unfold sout1_A
  rw [View.read_writes_eq_canon _ _ _ (scover1_A V c t h0 h1)]
  unfold runA1 kernelRun1_A
  dsimp only
  rw [View.canon_cons_unit_zero origin2]
  sl_unfold_words
  rw [View.readCov_unit_zero _ origin2]
  simp only [View.readAt_eq_ld, Memref.IsWhole.read_unread, View.ld_unit_zero (S := S512x4096) origin2, View.ld_unit_zero (S := S4096x32) origin2]

/-- 0 < k < 3: the accumulator ends at the block product added to what it held. -/
theorem sout1_B_eq (c : Dev nD) (t : Fin cfg1.N) (h0 : ¬t.val % 4 = 0) (h1 : ¬t.val % 4 = 3) (xs : Vec F S512x32 .f32) :
    sout1_B V c t h0 h1 xs = k1_pay2 (iblk1 V c 0 t) (iblk1 V c 1 t) xs := by
  unfold sout1_B
  rw [View.read_writes_eq_canon _ _ _ (scover1_B V c t h0 h1 xs)]
  unfold runB1 kernelRun1_B
  dsimp only
  rw [View.canon_unit_zero origin2]
  simp only [View.readAt_eq_ld, Memref.IsWhole.read_unread, acc_read, View.ld_unit_zero (S := S512x4096) origin2, View.ld_unit_zero (S := S4096x32) origin2, View.ld_unit_zero (S := S512x32) origin2]

/-- k = 3: the accumulator likewise, -/
theorem sout1_C_eq (c : Dev nD) (t : Fin cfg1.N) (h0 : ¬t.val % 4 = 0) (h1 : t.val % 4 = 3) (xs : Vec F S512x32 .f32) :
    sout1_C V c t h0 h1 xs = k1_pay2 (iblk1 V c 0 t) (iblk1 V c 1 t) xs := by
  unfold sout1_C
  rw [View.read_writes_eq_canon _ _ _ (scover1_C V c t h0 h1 xs)]
  unfold runC1 kernelRun1_C
  dsimp only
  sl_unfold_words
  rw [View.canon_unit_zero origin2]
  simp only [View.readAt_eq_ld, Memref.IsWhole.read_unread, acc_read, View.ld_unit_zero (S := S512x4096) origin2, View.ld_unit_zero (S := S4096x32) origin2, View.ld_unit_zero (S := S512x32) origin2]

/-- and the output block is a copy of it. -/
theorem out1_C_eq (c : Dev nD) (t : Fin cfg1.N) (h0 : ¬t.val % 4 = 0) (h1 : t.val % 4 = 3) (xs : Vec F S512x32 .f32) :
    out1_C V c t h0 h1 xs = k1_pay2 (iblk1 V c 0 t) (iblk1 V c 1 t) xs := by
  unfold out1_C
  rw [View.read_writes_eq_canon _ _ _ (cover1_C V c t h0 h1 xs)]
  unfold runC1 kernelRun1_C
  dsimp only
  sl_unfold_words
  rw [View.canon_unit_zero origin2, View.readCov_unit_zero (S := S512x32) _ origin2]
  simp only [View.readAt_eq_ld, Memref.IsWhole.read_unread, acc_read, View.ld_unit_zero (S := S512x4096) origin2, View.ld_unit_zero (S := S4096x32) origin2, View.ld_unit_zero (S := S512x32) origin2]

end Cert.KernelIdeal.Hand

end
-- ==== Proof.KI.R1Reads.lean ====
/-
  The second product's input blocks as parts of the arrays. Point t of the grid (32, 4), counted row-major, is row
  block m = t / 4 and column block k = t % 4. At that point the wavelets block is rows 512 m + p and columns
  4096 k + j of the matrix, and the y block is rows 4096 k + j of y.
-/
import proofs.«177444_j42442866819263_2_alg».proof.Proof.KI.R1Frame
import proofs.«177444_j42442866819263_2_alg».proof.Proof.SpecBlocks
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-! ## The index maps over the grid -/

/-- The wavelets window's block index at point `t` is `(t / 4, t % 4)`. -/
theorem idx1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
/-- The y window's block index at point `t` is `(t % 4, 0)`. -/
theorem idx1_1 : ∀ t : Fin cfg1.N, win1_1.index t 0 = t.val % 4 ∧ win1_1.index t 1 = 0 :=
  (by decide +kernel : ∀ t : Fin grid1.N, win1_1.index t 0 = t.val % 4 ∧ win1_1.index t 1 = 0)
/-- The output window's block index at point `t` is `(t / 4, 0)`. -/
theorem idx1_2 : ∀ t : Fin cfg1.N, win1_2.index t 0 = t.val / 4 ∧ win1_2.index t 1 = 0 :=
  (by decide +kernel : ∀ t : Fin grid1.N, win1_2.index t 0 = t.val / 4 ∧ win1_2.index t 1 = 0)

/-- A point's row block is below 32 … -/
theorem tdiv1 (t : Fin cfg1.N) : t.val / 4 < 32 := by have := t.isLt; have : cfg1.N = 128 := N_1; omega
/-- … and its column block below 4. -/
theorem tmod1 (t : Fin cfg1.N) : t.val % 4 < 4 := by omega

/-- The row block of point `t`. -/
abbrev mOf1 (t : Fin cfg1.N) : Fin 32 := ⟨t.val / 4, tdiv1 t⟩
/-- The column block of point `t`. -/
abbrev kOf1 (t : Fin cfg1.N) : Fin 4 := ⟨t.val % 4, tmod1 t⟩

/-! ## The blocks at an entry -/

/-- The wavelets block at point `t`, entry `(p, j)`: the matrix at row `512 m + p`, column `4096 k + j`. -/
theorem iblk1_0_apply (c : Dev nD) (t : Fin cfg1.N) (p : Fin 512) (j : Fin 4096) :
    (iblk1 V c 0 t : Vec F S512x4096 .f32) (ix2 p j)
      = (V c main_arg1 : S16384x16384.Idx → Elt F .f32) (ix2 (Cert.Spec.rowOf (mOf1 t) p) (Cert.Spec.blk (kOf1 t) j)) := by
  unfold iblk1
  rw [View.read_apply]
  show V c main_arg1 _ = V c main_arg1 _
  refine congrArg (V c main_arg1) (funext fun a => Fin.ext ?_)
  match a with
  | ⟨0, _⟩ =>
    show win1_0.index t 0 * 512 + 1 * p.val = (t.val / 4) * 512 + p.val
    rw [(idx1_0 t).1]; omega
  | ⟨1, _⟩ =>
    show win1_0.index t 1 * 4096 + 1 * j.val = (t.val % 4) * 4096 + j.val
    rw [(idx1_0 t).2]; omega

/-- The y block at point `t`, entry `(j, q)`: y at row `4096 k + j`, column `q`. -/
theorem iblk1_1_apply (c : Dev nD) (t : Fin cfg1.N) (j : Fin 4096) (q : Fin 32) :
    (iblk1 V c 1 t : Vec F S4096x32 .bf16) (ix2 j q)
      = (V c main_v3 : S16384x32.Idx → Elt F .bf16) (ix2 (Cert.Spec.blk (kOf1 t) j) q) := by
  unfold iblk1
  rw [View.read_apply]
  show V c main_v3 _ = V c main_v3 _
  refine congrArg (V c main_v3) (funext fun a => Fin.ext ?_)
  match a with
  | ⟨0, _⟩ =>
    show win1_1.index t 0 * 4096 + 1 * j.val = (t.val % 4) * 4096 + j.val
    rw [(idx1_1 t).1]; omega
  | ⟨1, _⟩ =>
    show win1_1.index t 1 * 32 + 1 * q.val = q.val
    rw [(idx1_1 t).2]; omega

end Cert.KernelIdeal.HandValue

end
-- ==== Proof.KI.R1Value.lean ====
/-
  The second product's result over the extended reals. Row block m of the result is accumulated over the four
  column blocks k = 0 … 3: after point t = 4 m + k the accumulator's entry (p, q) is the partial sum of the block sums
  0 … k of row 512 m + p of wavelets against column q of y, started from zero. At k = 3 the accumulator is copied out
  and written back as rows 512 m … 512 m + 511 of the result; the 32 row blocks fill the array.
-/
import proofs.«177444_j42442866819263_2_alg».proof.Proof.KI.R1Pieces
import proofs.«177444_j42442866819263_2_alg».proof.Proof.KI.R1Reads
import proofs.«177444_j42442866819263_2_alg».proof.Proof.KI.Payloads
import proofs.«177444_j42442866819263_2_alg».proof.Proof.KI.Acc

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

/-- One step at an entry: the block product's entry is that column block's sum for the row, added to the accumulator. -/
theorem step1 (c : Dev nD) (t : Fin cfg1.N) (xs : Vec Ideal S512x32 .f32) (p : Fin 512) (q : Fin 32) :
    k1_pay2 (F := Ideal) (iblk1 V c 0 t) (iblk1 V c 1 t) xs (ix2 p q)
      = xs (ix2 p q) + Cert.Spec.blockSum (V c main_arg1) (V c main_v3) (Cert.Spec.rowOf (mOf1 t) p) q (kOf1 t) := by
  refine (k1_pay2_apply (iblk1 V c 0 t) (iblk1 V c 1 t) xs p q).trans ?_
  unfold Cert.Spec.blockSum
  refine congrArg (xs (ix2 p q) + ·) (Finset.sum_congr rfl fun j _ => ?_)
  rw [iblk1_0_apply, iblk1_1_apply]

/-- THE ACCUMULATOR after every position: the partial sum up to the position's column block, for its row block. -/
theorem acc1 (c : Dev nD) : ∀ (n : ℕ) (hn : n < cfg1.N) (p : Fin 512) (q : Fin 32),
    (outsAt1 V c n hn).2 (ix2 p q)
      = Cert.Spec.accTo (Cert.Spec.blockSum (V c main_arg1) (V c main_v3) (Cert.Spec.rowOf (mOf1 ⟨n, hn⟩) p) q) (kOf1 ⟨n, hn⟩) := by
  intro n
  induction n using Nat.strong_induction_on with
  | _ n ih =>
    intro hn p q
    have hN : cfg1.N = 128 := N_1
    by_cases h0 : n % 4 = 0
    · have h1 : ¬n % 4 = 3 := by omega
      rw [outsAt1_A V c ⟨n, hn⟩ h0 h1]
      dsimp only
      rw [sout1_A_eq V c ⟨n, hn⟩ h0 h1]
      refine (step1 V c ⟨n, hn⟩ (k1_pay1 (F := Ideal)) p q).trans ?_
      rw [k1_pay1_apply p q, show kOf1 ⟨n, hn⟩ = 0 from Fin.ext h0]
      rfl
    · have hprev : n - 1 < cfg1.N := by omega
      have hm : mOf1 ⟨n - 1, hprev⟩ = mOf1 ⟨n, hn⟩ := Fin.ext (by show (n - 1) / 4 = n / 4; omega)
      have hk : (kOf1 ⟨n - 1, hprev⟩).val + 1 = (kOf1 ⟨n, hn⟩).val := by show (n - 1) % 4 + 1 = n % 4; omega
      by_cases h1 : n % 4 = 3
      · rw [outsAt1_C V c ⟨n, hn⟩ h0 h1]
        dsimp only
        rw [sout1_C_eq V c ⟨n, hn⟩ h0 h1]
        refine (step1 V c ⟨n, hn⟩ (outsAt1 V c (n - 1) hprev).2 p q).trans ?_
        rw [ih (n - 1) (by omega) hprev p q, hm]
        exact Cert.Spec.accTo_succ _ _ _ hk
      · rw [outsAt1_B V c ⟨n, hn⟩ h0 h1]
        dsimp only
        rw [sout1_B_eq V c ⟨n, hn⟩ h0 h1]
        refine (step1 V c ⟨n, hn⟩ (outsAt1 V c (n - 1) hprev).2 p q).trans ?_
        rw [ih (n - 1) (by omega) hprev p q, hm]
        exact Cert.Spec.accTo_succ _ _ _ hk

/-- THE STORED BLOCK at k = 3: the full sum over the four column blocks, for the point's row block. -/
theorem stored1 (c : Dev nD) (t : Fin cfg1.N) (h1 : t.val % 4 = 3) (p : Fin 512) (q : Fin 32) :
    (outsAt1 V c t.val t.isLt).1 (ix2 p q)
      = Cert.Spec.accTo (Cert.Spec.blockSum (V c main_arg1) (V c main_v3) (Cert.Spec.rowOf (mOf1 t) p) q) 3 := by
  have h0 : ¬t.val % 4 = 0 := by omega
  have ha := acc1 V c t.val t.isLt p q
  rw [outsAt1_C V c t h0 h1] at ha ⊢
  dsimp only at ha ⊢
  rw [sout1_C_eq V c t h0 h1] at ha
  rw [out1_C_eq V c t h0 h1]
  rw [show kOf1 ⟨t.val, t.isLt⟩ = 3 from Fin.ext h1] at ha
  exact ha

/-- The result array the second product leaves: every entry the full sum of its row of wavelets against its column of y. -/
abbrev result1 (c : Dev nD) : Buf (Elt Ideal) ((c : Thread nD τ).loc main_v4) :=
  fun i => Cert.Spec.accTo (Cert.Spec.blockSum (V c main_arg1) (V c main_v3) (i 0) (i 1)) 3

/-- What a point with k = 3 writes back is its row block of that array. -/
theorem flushed1_eq (c : Dev nD) (t : Fin cfg1.N) (hf : (cfg1.win 2).flush t = true) :
    (dat1 V c).flushed 2 t = ((cfg1.win 2).blk t).view.read (Elt Ideal) (result1 V c) := by
  have h1 : t.val % 4 = 3 := (flush1_2 t).mp hf
  show (cfg1.win 2).cut (grid1.coords t) ((dat1 V c).after 2 t) = _
  rw [after1_2]
  have hs : ∀ (p : Fin 512) (q : Fin 32), (outsAt1 V c t.val t.isLt).1 (ix2 p q)
      = Cert.Spec.accTo (Cert.Spec.blockSum (V c main_arg1) (V c main_v3) (Cert.Spec.rowOf (mOf1 t) p) q) 3 := stored1 V c t h1
  generalize (outsAt1 V c t.val t.isLt).1 = X at hs ⊢
  funext y
  obtain ⟨p, q, rfl⟩ : ∃ (p : Fin 512) (q : Fin 32), y = ix2 p q := ⟨y 0, y 1, eq_ix2 y⟩
  rw [View.read_apply]
  show X (ix2 p q) = result1 V c (((cfg1.win 2).blk t).view.emb (ix2 p q))
  rw [hs p q]
  have e0 : (((cfg1.win 2).blk t).view.emb (ix2 p q)) 0 = Cert.Spec.rowOf (mOf1 t) p :=
    Fin.ext (by show win1_2.index t 0 * 512 + 1 * p.val = (t.val / 4) * 512 + p.val; rw [(idx1_2 t).1]; omega)
  have e1 : (((cfg1.win 2).blk t).view.emb (ix2 p q)) 1 = q :=
    Fin.ext (by show win1_2.index t 1 * 32 + 1 * q.val = q.val; rw [(idx1_2 t).2]; omega)
  show _ = Cert.Spec.accTo (Cert.Spec.blockSum (V c main_arg1) (V c main_v3) ((((cfg1.win 2).blk t).view.emb (ix2 p q)) 0) ((((cfg1.win 2).blk t).view.emb (ix2 p q)) 1)) 3
  rw [e0, e1]

/-- An index of the result array is in point `t`'s block iff each coordinate is in the block's range on its axis. -/
theorem mem_blk1 (t : Fin cfg1.N) (i : S16384x32.Idx) :
    i ∈ ((cfg1.win 2).blk t).view.set ↔ ∀ a : Fin 2, win1_2.index t a * S512x32.size a ≤ (i a).val ∧ (i a).val < win1_2.index t a * S512x32.size a + S512x32.size a := by
  show i ∈ ((View.whole main_v4).slice (win1_2.rect t)).set ↔ _
  rw [View.set_slice_whole, Rect.mem_set_unit]
  exact Iff.rfl

/-- THE RESULT ARRAY after the region: row r is written back by the point 4 (r / 512) + 3. -/
theorem arrAt1_eq (c : Dev nD) : (dat1 V c).arrAt 2 cfg1.N
    = fun i => Cert.Spec.accTo (Cert.Spec.blockSum (V c main_arg1) (V c main_v3) (i 0) (i 1)) 3 :=
  (dat1 V c).arrAt_eq_of_cover 2 (result1 V c) (flushed1_eq V c) fun i => by
    have hi0 : (i 0).val < 16384 := (i 0).isLt
    have hi1 : (i 1).val < 32 := (i 1).isLt
    have hN : cfg1.N = 128 := N_1
    refine ⟨⟨4 * ((i 0).val / 512) + 3, by rw [hN]; omega⟩, (flush1_2 _).mpr (by show (4 * ((i 0).val / 512) + 3) % 4 = 3; omega), ?_⟩
    rw [mem_blk1]
    intro a
    match a with
    | ⟨0, _⟩ =>
      show win1_2.index _ 0 * 512 ≤ (i 0).val ∧ (i 0).val < win1_2.index _ 0 * 512 + 512
      rw [(idx1_2 _).1]
      show (4 * ((i 0).val / 512) + 3) / 4 * 512 ≤ (i 0).val ∧ (i 0).val < (4 * ((i 0).val / 512) + 3) / 4 * 512 + 512
      omega
    | ⟨1, _⟩ =>
      show win1_2.index _ 1 * 32 ≤ (i 1).val ∧ (i 1).val < win1_2.index _ 1 * 32 + 32
      rw [(idx1_2 _).2]
      omega

end Cert.KernelIdeal.HandValue

end
-- ==== Proof.KI.Final.lean ====
/- The result of the kernel program at the ideal values is the specification's: the two regions' value theorems composed
   through the contents at the regions' entries, each read back to the launched arguments. -/
import proofs.«177444_j42442866819263_2_alg».proof.Proof.KI.Run
import proofs.«177444_j42442866819263_2_alg».proof.Proof.KI.Acc
import proofs.«177444_j42442866819263_2_alg».proof.Proof.KI.R0Value
import proofs.«177444_j42442866819263_2_alg».proof.Proof.KI.R1Value
import Idealize.ShloMosaic.PureOps.Ideal.Laws
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand Idealize.ShloMosaic Idealize.ShloMosaic.TcCoe
  Idealize.ShloMosaic.ValueIdx Idealize.SL.Sem

/-! ## The first host product at an entry

`main_v1` is the features times the weights (the conversion to the narrow format is the identity on extended reals); its
entry `(r, q)` is the sum over the 32 columns `k` of the features at `(r, k)` times the weights at `(k, q)`. -/

/-- The dimension numbers of the features times the weights: the features' columns against the weights' rows. -/
abbrev D₀ : DotDims S16384x32 S32x32 S16384x32 := dot_S16384x32_S32x32_S16384x32_1_0_0_1_n_n

/-- The left operand's row coordinate is the entry's row … -/
theorem lhs_row (i : S16384x32.Idx) (κ : D₀.contr.Idx) : (D₀.lhsIdx i κ 0).val = (i 0).val := by
  unfold DotDims.lhsIdx
  rw [dif_neg (show ¬(0 : Fin S16384x32.rank) ∈ D₀.lhsBatch by decide),
    dif_pos (show (0 : Fin S16384x32.rank) ∈ D₀.lhsNonContracting by decide)]
  rfl
/-- … its column coordinate the contraction's one coordinate; -/
theorem lhs_col (i : S16384x32.Idx) (κ : D₀.contr.Idx) : (D₀.lhsIdx i κ 1).val = (κ ⟨0, by decide⟩).val :=
  D₀.lhsIdx_val_of_single rfl i κ
/-- the right operand's row coordinate is the contraction's one coordinate … -/
theorem rhs_row (i : S16384x32.Idx) (κ : D₀.contr.Idx) : (D₀.rhsIdx i κ 0).val = (κ ⟨0, by decide⟩).val :=
  D₀.rhsIdx_val_of_single rfl i κ
/-- … and its column coordinate the entry's column. -/
theorem rhs_col (i : S16384x32.Idx) (κ : D₀.contr.Idx) : (D₀.rhsIdx i κ 1).val = (i 1).val := by
  unfold DotDims.rhsIdx
  rw [dif_neg (show ¬(1 : Fin S32x32.rank) ∈ D₀.rhsBatch by decide),
    dif_pos (show (1 : Fin S32x32.rank) ∈ D₀.rhsNonContracting by decide)]
  rfl

/-- Term `k` of the entry `(r, q)` reads the features at `(r, k)` … -/
theorem lhs_at (r : Fin 16384) (q k : Fin 32) :
    D₀.lhsIdx (ix2 r q) ((contrEquiv1 D₀ 32 rfl rfl).symm k) = ix2 r k :=
  funext fun a => Fin.ext (by
    match a with
    | ⟨0, _⟩ => exact lhs_row _ _
    | ⟨1, _⟩ => exact (lhs_col _ _).trans (contrEquiv1_symm_val D₀ 32 rfl rfl k))
/-- … and the weights at `(k, q)`. -/
theorem rhs_at (r : Fin 16384) (q k : Fin 32) :
    D₀.rhsIdx (ix2 r q) ((contrEquiv1 D₀ 32 rfl rfl).symm k) = ix2 k q :=
  funext fun a => Fin.ext (by
    match a with
    | ⟨0, _⟩ => exact (rhs_row _ _).trans (contrEquiv1_symm_val D₀ 32 rfl rfl k)
    | ⟨1, _⟩ => exact rhs_col _ _)

/-- The host's product of the features and the weights is the specification's projection, whatever its precision. -/
theorem hostDot_eq (prec : Option ContractPrecision) (x0 : FVec Ideal S16384x32 .f32) (x4 : FVec Ideal S32x32 .f32) :
    Host.dotGeneral (F := Ideal) (φ₁ := .f32) (φ₂ := .f32) D₀ prec x0 x4 = Cert.Spec.proj x0 x4 := by
  funext i
  obtain ⟨r, q, rfl⟩ : ∃ (r : Fin 16384) (q : Fin 32), i = ix2 r q := ⟨i 0, i 1, eq_ix2 i⟩
  rw [Cert.Spec.proj_apply]
  simp only [Host.dotGeneral]
  rw [Ideal.dotGeneral_apply, ← Equiv.sum_comp (contrEquiv1 D₀ 32 rfl rfl).symm]
  exact Finset.sum_congr rfl fun k _ => by rw [lhs_at, rhs_at]

/-! ## The regions' entry contents as the specification's arrays -/

variable (m : (ℓ : Loc nD τ sig) → Buf (Elt Ideal) ℓ) (ρ : Dev nD → PrngReg)

/-- The first product's right operand `main_v1` is the specification's projection of the launched features and weights. -/
theorem v1_eq (c : Dev nD) : (V1 (F := Ideal) m ρ c main_v1 : S16384x32.Idx → EReal)
    = Cert.Spec.proj (m ((c : Thread nD τ).loc main_arg0)) (m ((c : Thread nD τ).loc main_arg4)) := by
  rw [V1_main_v1]
  funext i
  rw [truncf_apply]
  exact congrFun (hostDot_eq _ _ _) i

/-- The filter column `main_v2` at row `r` is the launched filter's entry `r`: the recast keeps the row-major place. -/
theorem v2_at (c : Dev nD) (r : Fin 16384) :
    (V1 (F := Ideal) m ρ c main_v2 : S16384x1.Idx → EReal) (ix2 r (0 : Fin 1)) = m ((c : Thread nD τ).loc main_arg3) (ix1 r) := by
  rw [V1_main_v2_eq]
  refine shapeCast_apply _ _ _ _ ?_
  show (S16384.rowMajor (ix1 r)).val = (S16384x1.rowMajor (ix2 r (0 : Fin 1))).val
  rw [Shape.rowMajor_val_one, Shape.rowMajor_val_two]
  show r.val = r.val * 1 + 0
  omega

/-- THE FIRST PRODUCT: what the second product finds in `main_v3` is the specification's filtered product — each row's
    16384-term sum taken in four blocks of 4096 onto zero, times the row's filter entry on the right. -/
theorem v3_eq (c : Dev nD) : (V2 (F := Ideal) m ρ c main_v3 : S16384x32.Idx → EReal)
    = Cert.Spec.mid (m ((c : Thread nD τ).loc main_arg0)) (m ((c : Thread nD τ).loc main_arg2))
        (m ((c : Thread nD τ).loc main_arg3)) (m ((c : Thread nD τ).loc main_arg4)) := by
  rw [V2_main_v3, arrAt0_eq]
  funext i
  obtain ⟨r, q, rfl⟩ : ∃ (r : Fin 16384) (q : Fin 32), i = ix2 r q := ⟨i 0, i 1, eq_ix2 i⟩
  show Cert.Spec.accTo (Cert.Spec.blockSum (V1 m ρ c main_arg2) (V1 m ρ c main_v1) r q) 3 * Cert.Spec.colAt (V1 m ρ c main_v2) r = _
  rw [V1_main_arg2, v1_eq]
  unfold Cert.Spec.colAt
  rw [v2_at]
  exact Cert.Spec.accTo_mid _ _ _ _ r q

/-- THE RESULT: what the second product's pipeline leaves in its output window is the specification's result of the five
    launched arguments — each row's 16384-term sum taken in four blocks of 4096 onto zero. -/
theorem final_value (c : Dev nD) : (dat1 (V2 (F := Ideal) m ρ) c).arrAt 2 cfg1.N
    = Cert.Spec.out (m ((c : Thread nD τ).loc main_arg0)) (m ((c : Thread nD τ).loc main_arg1))
        (m ((c : Thread nD τ).loc main_arg2)) (m ((c : Thread nD τ).loc main_arg3)) (m ((c : Thread nD τ).loc main_arg4)) := by
  rw [arrAt1_eq]
  funext i
  obtain ⟨r, q, rfl⟩ : ∃ (r : Fin 16384) (q : Fin 32), i = ix2 r q := ⟨i 0, i 1, eq_ix2 i⟩
  show Cert.Spec.accTo (Cert.Spec.blockSum (V2 m ρ c main_arg1) (V2 m ρ c main_v3) r q) 3 = _
  rw [V2_main_arg1, v3_eq]
  exact Cert.Spec.accTo_out _ _ _ _ _ r q

/-- THE KERNEL COMPUTES THE SPECIFICATION: at the ideal values every weakly fair execution of @main terminates, nothing
    faulting, and every final memory holds in `main_v4` the specification's result of the five launched arguments, and
    each argument as launched. -/
theorem run_out : θ_run (defs (F := Ideal)) (onTc (τ := τ) (main (F := Ideal))) ⟨m, fun _ => 0, ρ⟩ (fun r => ∀ c : Dev nD,
      r.2.mem ((c.tc : Thread nD τ).loc main_v4)
        = Cert.Spec.out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (final_value m ρ c), (h c).2⟩) (run_value m ρ)

/-- info: 'Cert.KernelIdeal.HandValue.run_out' depends on axioms: [propext, Classical.choice, Quot.sound] -/
#guard_msgs in #print axioms run_out

end Cert.KernelIdeal.HandValue

end
-- ==== Proof.RefValue.lean ====
/-
  The reference computes the specification: at the ideal values the reference program's result, read entry by entry
  through its six host operations, is `Cert.Spec.out` of the five argument arrays.

  The reference is  x = features · W,  y = wavelets_inv · x,  y' = diag ⊙ y (the filter broadcast along each row, the
  filter entry on the LEFT of the product),  out = wavelets · y'.  Each `dot_general` read at an entry is the plain sum over
  its contraction coordinate; the two broadcasts read the filter at the entry's row; and `diag r * s = s * diag r`
  because multiplication of extended reals is commutative. No entry need be finite.
-/
import proofs.«177444_j42442866819263_2_alg».proof.Proof.Gen.ReferenceIdeal.Read
import proofs.«177444_j42442866819263_2_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The operations' operand indices at the entry `(r, q)` -/

/-- `features · W` at `(r, q)`, term `k`, reads the features at `(r, k)` … -/
theorem lidx0 (r : Fin 16384) (q k : Fin 32) : Read.lidx_main_v0 (ix2 r q) k = ix2 r k :=
  funext fun a => Fin.ext (by match a with | ⟨0, _⟩ => rfl | ⟨1, _⟩ => rfl)
/-- … and the weights at `(k, q)`. -/
theorem ridx0 (r : Fin 16384) (q k : Fin 32) : Read.ridx_main_v0 (ix2 r q) k = ix2 k q :=
  funext fun a => Fin.ext (by match a with | ⟨0, _⟩ => rfl | ⟨1, _⟩ => rfl)
/-- `wavelets_inv · x` at `(r, q)`, term `k`, reads the matrix at `(r, k)` … -/
theorem lidx1 (r : Fin 16384) (q : Fin 32) (k : Fin 16384) : Read.lidx_main_v1 (ix2 r q) k = ix2 r k :=
  funext fun a => Fin.ext (by match a with | ⟨0, _⟩ => rfl | ⟨1, _⟩ => rfl)
/-- … and `x` at `(k, q)`. -/
theorem ridx1 (r : Fin 16384) (q : Fin 32) (k : Fin 16384) : Read.ridx_main_v1 (ix2 r q) k = ix2 k q :=
  funext fun a => Fin.ext (by match a with | ⟨0, _⟩ => rfl | ⟨1, _⟩ => rfl)
/-- `wavelets · y'` at `(r, q)`, term `k`, reads the matrix at `(r, k)` … -/
theorem lidx5 (r : Fin 16384) (q : Fin 32) (k : Fin 16384) : Read.lidx_main_v5 (ix2 r q) k = ix2 r k :=
  funext fun a => Fin.ext (by match a with | ⟨0, _⟩ => rfl | ⟨1, _⟩ => rfl)
/-- … and `y'` at `(k, q)`. -/
theorem ridx5 (r : Fin 16384) (q : Fin 32) (k : Fin 16384) : Read.ridx_main_v5 (ix2 r q) k = ix2 k q :=
  funext fun a => Fin.ext (by match a with | ⟨0, _⟩ => rfl | ⟨1, _⟩ => rfl)
/-- The filter broadcast to `[16384, 32]` through `[16384, 1]` reads, at `(r, q)`, the filter's entry `r`. -/
theorem idx23 (r : Fin 16384) (q : Fin 32) : Read.idx_main_v2 (Read.idx_main_v3 (ix2 r q)) = ix1 r :=
  funext fun a => Fin.ext (by match a with | ⟨0, _⟩ => rfl)

/-! ## The stages at an entry -/

/-- The reference's first product is the specification's projection. -/
theorem v0_eq (x0 : (⟨S16384x32, .f32⟩ : BufTy).Contents (Elt Ideal)) (x4 : (⟨S32x32, .f32⟩ : BufTy).Contents (Elt Ideal)) :
    Read.val_main_v0 (F := Ideal) x0 x4 = Cert.Spec.proj x0 x4 := by
  funext i
  obtain ⟨r, q, rfl⟩ : ∃ (r : Fin 16384) (q : Fin 32), i = ix2 r q := ⟨i 0, i 1, eq_ix2 i⟩
  rw [Read.val_main_v0_apply, Cert.Spec.proj_apply]
  exact Finset.sum_congr rfl fun k _ => by rw [lidx0, ridx0]

/-- The reference's filtered product is the specification's: the filter entry moves to the right of the row's sum. -/
theorem v4_eq (x0 : (⟨S16384x32, .f32⟩ : BufTy).Contents (Elt Ideal)) (x2 : (⟨S16384x16384, .f32⟩ : BufTy).Contents (Elt Ideal))
    (x3 : (⟨S16384, .f32⟩ : BufTy).Contents (Elt Ideal)) (x4 : (⟨S32x32, .f32⟩ : BufTy).Contents (Elt Ideal)) :
    Read.val_main_v4 (F := Ideal) x0 x2 x3 x4 = Cert.Spec.mid x0 x2 x3 x4 := by
  funext i
  obtain ⟨r, q, rfl⟩ : ∃ (r : Fin 16384) (q : Fin 32), i = ix2 r q := ⟨i 0, i 1, eq_ix2 i⟩
  rw [Read.val_main_v4_apply, Read.val_main_v3_apply, Read.val_main_v2_apply, Read.val_main_v1_apply, v0_eq, idx23,
    Cert.Spec.mid_apply, Ideal.mulf_def, mul_comm]
  exact congrArg (· * x3 (ix1 r)) (Finset.sum_congr rfl fun k _ => by rw [lidx1, ridx1])

/-- THE REFERENCE IS THE SPECIFICATION: its result array is `Cert.Spec.out` of the five arguments. -/
theorem ref_eq (x0 : (⟨S16384x32, .f32⟩ : BufTy).Contents (Elt Ideal)) (x1 x2 : (⟨S16384x16384, .f32⟩ : BufTy).Contents (Elt Ideal))
    (x3 : (⟨S16384, .f32⟩ : BufTy).Contents (Elt Ideal)) (x4 : (⟨S32x32, .f32⟩ : BufTy).Contents (Elt Ideal)) :
    Read.val_main_v5 (F := Ideal) x0 x1 x2 x3 x4 = Cert.Spec.out x0 x1 x2 x3 x4 := by
  funext i
  obtain ⟨r, q, rfl⟩ : ∃ (r : Fin 16384) (q : Fin 32), i = ix2 r q := ⟨i 0, i 1, eq_ix2 i⟩
  rw [Read.val_main_v5_apply, v4_eq, Cert.Spec.out_apply]
  exact Finset.sum_congr rfl fun k _ => by rw [lidx5, ridx5]

/-- The same for the term the reference's run states for its result: the composed host operations of the arguments. -/
theorem run_term_eq (x0 : (⟨S16384x32, .f32⟩ : BufTy).Contents (Elt Ideal)) (x1 x2 : (⟨S16384x16384, .f32⟩ : BufTy).Contents (Elt Ideal))
    (x3 : (⟨S16384, .f32⟩ : BufTy).Contents (Elt Ideal)) (x4 : (⟨S32x32, .f32⟩ : BufTy).Contents (Elt Ideal)) :
    Host.dotGeneral (F := Ideal) (φ₁ := .f32) (φ₂ := .f32) dot_S16384x16384_S16384x32_S16384x32_1_0_0_1_n_n none (x1)
        (mulf (F := Ideal) (φ := .f32)
          (broadcastInDim S16384x32 ![0, 1] bcast_S16384x1_S16384x32_0_1 (broadcastInDim S16384x1 ![0] bcast_S16384_S16384x1_0 (x3)))
          (Host.dotGeneral (F := Ideal) (φ₁ := .f32) (φ₂ := .f32) dot_S16384x16384_S16384x32_S16384x32_1_0_0_1_n_n none (x2)
            (Host.dotGeneral (F := Ideal) (φ₁ := .f32) (φ₂ := .f32) dot_S16384x32_S32x32_S16384x32_1_0_0_1_n_n none (x0) (x4))))
      = Cert.Spec.out x0 x1 x2 x3 x4 :=
  (Read.val_main_v5_eq (F := Ideal) x0 x1 x2 x3 x4).trans (ref_eq x0 x1 x2 x3 x4)

end Cert.ReferenceIdeal.RefValue

end
-- ==== Proof.lean ====
/-
  The claim. The kernel computes out = wavelets · (diag ⊙ (wavelets_inv · (features · W))) as a small host product
  x = features · W followed by two tiled matrix products, each over a (32, 4) grid of 512-row by 4096-column blocks
  accumulated in a buffer the kernel keeps from one grid point to the next; the reference computes the same
  expression with whole-array products. Over the extended reals the two differ only in how each 16384-term sum is
  grouped (four blocks of 4096 terms added left to right onto zero) and in the side on which the diag factor is
  written, so the results are equal entry by entry with no condition on the inputs.
  The frames: each program runs to the end, faults nowhere and leaves its argument arrays unchanged; for the two
  kernel programs this is read off the run of @main as three segments (host operations, then one region per product),
  for the reference off its list of host operations. The idealization rewrote no operation, so the word-level kernel and
  the idealized one are the same text read at two instances.
-/
import proofs.«177444_j42442866819263_2_alg».proof.Defs
import proofs.«177444_j42442866819263_2_alg».proof.Proof.Gen.Kernel
import proofs.«177444_j42442866819263_2_alg».proof.Proof.Gen.KernelIdeal
import proofs.«177444_j42442866819263_2_alg».proof.Proof.Gen.ReferenceIdeal
import proofs.«177444_j42442866819263_2_alg».proof.Proof.Gen.Pre_finite_inputs
import proofs.«177444_j42442866819263_2_alg».proof.Proof.Gen.ReferenceIdeal.Run
import proofs.«177444_j42442866819263_2_alg».proof.Proof.KB.Run
import proofs.«177444_j42442866819263_2_alg».proof.Proof.KI.Run
import proofs.«177444_j42442866819263_2_alg».proof.Proof.KI.Final
import proofs.«177444_j42442866819263_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Hand.frame (F := Bits) m ρ

/-- The idealized kernel program runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and keeps its arguments: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's array of the arguments: the kernel's by its two accumulated
    products, the reference's by its whole products. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.KernelIdeal.HandValue.final_value m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.RefValue.run_term_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
